-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S64x1 .f32) (main_arg11 : FVec F S1 .f32) (main_v33 : IVec S_ 1) : IVec S_ 1 :=
  let main_v34 : FVec F S64x1 .f32 := Host.absf main_arg10
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64 .f32) (main_arg8 : FVec F S64 .f32) (main_arg9 : FVec F S64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S2x3200000 32) (main_arg2 : IVec S500000 32) (main_arg3 : IVec S500000 32) (main_arg4 : FVec F S128x64 .f32) (main_arg5 : FVec F S64 .f32) (main_arg6 : FVec F S64x64 .f32) (main_arg7 : FVec F S64 .f32) (main_arg8 : FVec F S64 .f32) (main_arg9 : FVec F S64 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x64 : Shape := ⟨2, ![3200000, 64]⟩
abbrev S1x64 : Shape := ⟨2, ![1, 64]⟩
abbrev S500000x1 : Shape := ⟨2, ![500000, 1]⟩
abbrev S500000x64 : Shape := ⟨2, ![500000, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 87
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S500000, .i32⟩
  | .hbm, ⟨3, _⟩ => ⟨S500000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000x64, .f32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x64, .f32⟩
  | .hbm, ⟨39, _⟩ => ⟨S_, .f32⟩
  | .hbm, ⟨40, _⟩ => ⟨S100000x64, .f32⟩
  | .hbm, ⟨41, _⟩ => ⟨S3200000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x1, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x64, .f32⟩
  | .hbm, ⟨66, _⟩ => ⟨S_, .f32⟩
  | .hbm, ⟨67, _⟩ => ⟨S1024x64, .f32⟩
  | .hbm, ⟨68, _⟩ => ⟨S500000x1, .i32⟩
  | .hbm, ⟨69, _⟩ => ⟨S1024x64, .f32⟩
  | .hbm, ⟨70, _⟩ => ⟨S_, .f32⟩
  | .hbm, ⟨71, _⟩ => ⟨S500000, .f32⟩
  | .hbm, ⟨72, _⟩ => ⟨S_, .f32⟩
  | .hbm, ⟨73, _⟩ => ⟨S1024, .f32⟩
  | .hbm, ⟨74, _⟩ => ⟨S500000x1, .i32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024x1, .f32⟩
  | .hbm, ⟨80, _⟩ => ⟨S1024x64, .f32⟩
  | .hbm, ⟨81, _⟩ => ⟨S1024x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x1, .f32⟩
  | .hbm, ⟨86, _⟩ => ⟨S1024x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S1024x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S64_S1x64 : S64.ShapeCasts S1x64
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S64 : S1024x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S10000x128_S128x64_S10000x64_1_0_0_1_n_n_wf : DotDims.WF S10000x128 S128x64 S10000x64 [1] [0] [0] [1] [] []
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S500000x1_S500000x64_1_0_n_n_0_1_164_wf : GatherDims.WF S100000x64 S500000x1 S500000x64 [1] [0] [] [0] [] 1 ![1, 64]
  scatter_S1024x64_S500000x1_S500000x64_1_0_0_1_wf : ScatterDims.WF S1024x64 S500000x1 S500000x64 [1] [0] [0] 1
  scatter_S1024_S500000x1_S500000_n_0_0_1_wf : ScatterDims.WF S1024 S500000x1 S500000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S1024x64.size a
  hwx1_0 : ∀ i : grid1.Coords, EltTy.bits .f32 = 32 ∨ (Rect.block (s := S1024x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S1024x64_S500000x1_S500000x64_1_0_0_1 : ScatterDims S1024x64 S500000x1 S500000x64 where
  updateWindowDims := [1]
  insertedWindowDims := [0]
  scatterDimsToOperandDims := [0]
  indexVectorDim := 1
  wf := scatter_S1024x64_S500000x1_S500000x64_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S1024x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S1024x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S500000x1 : Shape := ⟨2, ![500000, 1]⟩
abbrev S500000x64 : Shape := ⟨2, ![500000, 64]⟩
abbrev S1024x64 : Shape := ⟨2, ![1024, 64]⟩
abbrev S1024 : Shape := ⟨1, ![1024]⟩
abbrev S1024x1 : Shape := ⟨2, ![1024, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x3200000, .i32⟩
  | 2 => ⟨S500000, .i32⟩
  | 3 => ⟨S500000, .i32⟩
  | 4 => ⟨S128x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S100000x64, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x64, .f32⟩
  | 62 => ⟨S3300000x1, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x64, .f32⟩
  | 84 => ⟨S_, .f32⟩
  | 85 => ⟨S1024x64, .f32⟩
  | 86 => ⟨S500000x1, .i32⟩
  | 87 => ⟨S1024x64, .f32⟩
  | 88 => ⟨S_, .f32⟩
  | 89 => ⟨S500000, .f32⟩
  | 90 => ⟨S_, .f32⟩
  | 91 => ⟨S1024, .f32⟩
  | 92 => ⟨S500000x1, .i32⟩
  | 93 => ⟨S1024, .f32⟩
  | 94 => ⟨S_, .f32⟩
  | 95 => ⟨S1024, .f32⟩
  | 96 => ⟨S1024, .f32⟩
  | 97 => ⟨S1024x1, .f32⟩
  | 98 => ⟨S1024x64, .f32⟩
  | 99 => ⟨S1024x64, .f32⟩
  | 100 => ⟨S1024x64, .f32⟩
  | 101 => ⟨S1x64, .f32⟩
  | 102 => ⟨S1024x64, .f32⟩
  | 103 => ⟨S1024x64, .f32⟩
  | 104 => ⟨S_, .f32⟩
  | 105 => ⟨S1024x64, .f32⟩
  | 106 => ⟨S1024x64, .f32⟩
  | 107 => ⟨S_, .f32⟩
  | 108 => ⟨S64, .f32⟩
  | 109 => ⟨S_, .f32⟩
  | 110 => ⟨S64, .f32⟩
  | 111 => ⟨S64, .f32⟩
  | 112 => ⟨S1x64, .f32⟩
  | 113 => ⟨S1024x64, .f32⟩
  | 114 => ⟨S1024x64, .f32⟩
  | 115 => ⟨S1024x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S1024x64, .f32⟩
  | 123 => ⟨S1024x64, .f32⟩
  | 124 => ⟨S_, .f32⟩
  | 125 => ⟨S64, .f32⟩
  | 126 => ⟨S64, .f32⟩
  | 127 => ⟨S64, .f32⟩
  | _ => ⟨S100000x128, .f32⟩

abbrev hbmTy0_1 (i : Nat) : BufTy := match i % 128 with
  | 0 => ⟨S1x64, .f32⟩
  | 1 => ⟨S1024x64, .f32⟩
  | 2 => ⟨S1024x64, .f32⟩
  | 3 => ⟨S1x64, .f32⟩
  | 4 => ⟨S1024x64, .f32⟩
  | 5 => ⟨S1024x64, .f32⟩
  | 6 => ⟨S1x64, .f32⟩
  | 7 => ⟨S1024x64, .f32⟩
  | 8 => ⟨S1024x64, .f32⟩
  | 9 => ⟨S1024x1, .f32⟩
  | 10 => ⟨S1x1, .f32⟩
  | 11 => ⟨S1024x1, .f32⟩
  | 12 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call2_cst : Ref sig .tc := ⟨.hbm, 104, rfl⟩
abbrev main_call2_v0 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  reducesTo_S1024x64_S64_d0 : S1024x64.ReducesTo [0] S64
  h_S_ : 0 < S_.numel
  bcast_S_S64 : S_.BroadcastsInDim S64 (![] : Fin 0 → Fin S64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S500000x1_S500000x64_1_0_n_n_0_1_164_wf : GatherDims.WF S100000x64 S500000x1 S500000x64 [1] [0] [] [0] [] 1 ![1, 64]
  scatter_S1024x64_S500000x1_S500000x64_1_0_0_1_wf : ScatterDims.WF S1024x64 S500000x1 S500000x64 [1] [0] [0] 1
  scatter_S1024_S500000x1_S500000_n_0_0_1_wf : ScatterDims.WF S1024 S500000x1 S500000 [] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S1024x64_S500000x1_S500000x64_1_0_0_1 : ScatterDims S1024x64 S500000x1 S500000x64 where
  updateWindowDims := [1]
  insertedWindowDims := [0]
  scatterDimsToOperandDims := [0]
  indexVectorDim := 1
  wf := scatter_S1024x64_S500000x1_S500000x64_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KernelRun.lean ====
/-
  The kernel program's run with its result named.

  The program is a chain of six segments: the host lines that cut the edge list into its two rows, the projection
  region, the host lines of the graph convolution, the rectifier, the host lines of the gather and the mean pool, and
  the predictor region.  Every segment maps the contents of the device's buffers at its entry to their contents at its
  exit, so the whole run ends with every buffer at the last boundary's contents; read at the result buffer this names
  what the program returns, and read at the argument buffers it says they are unchanged.
-/
import proofs.«105521_j74612171866465_2_alg».proof.Proof.Gen.KernelIdeal.Frame

set_option maxRecDepth 16384

noncomputable section

namespace Cert.Bridge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and each argument buffer what it held at the launch. -/
theorem run_result : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Bridge.Run

end
-- ==== Proof.RefTerms.lean ====
/-
  The reference program's result, cut into its stages.

  The reference computes, from the node features `x`, the edge list (its two rows `row`, `col`), the member and graph
  indices and the weights:  the projection `xw = x · W`;  the graph convolution with self loops
  `out[c] = Σ_{edges e into c, and the loop at c} xw[row e] · (dinv[row e] · dinv[col e]) + b`, where
  `deg[c]` counts the edges into `c` and its loop and `dinv = deg^(-1/2)` (zero where `deg` is not positive);
  the rectifier;  the gather of the member nodes and their mean per graph;  and the predictor
  (linear, rectifier, normalisation over the batch of graphs by the batch mean and the biased batch variance, linear).
  Each stage below is the corresponding piece of the reference's composed term, with the earlier stages as variables.
-/
import proofs.«105521_j74612171866465_2_alg».proof.Proof.Gen.ReferenceIdeal
import Idealize.ShloMosaic.PureOps.Ideal

set_option maxRecDepth 8192

noncomputable section

namespace Cert.Bridge.Ref

open Cert.ReferenceIdeal Cert.ReferenceIdeal.Gen Idealize.ShloMosaic Idealize.ShloMosaic.TcCoe

/-- The projection: `x · W`. -/
def refXW (a0 : FVec Ideal S100000x128 .f32) (a4 : FVec Ideal S128x64 .f32) : FVec Ideal S100000x64 .f32 :=
  Host.dotGeneral dot_S100000x128_S128x64_S100000x64_1_0_0_1_n_n none a0 a4

/-- One row of the edge list as a flat vector (`r = 0`: sources, `r = 1`: targets). -/
def refRow (a1 : IVec S2x3200000 32) : IVec S3200000 32 :=
  (shapeCast _ (extractStridedSlice S1x3200000 ![0, 0] a1 slices_S2x3200000_S1x3200000_0_0) shapeCasts_S1x3200000_S3200000)
def refCol (a1 : IVec S2x3200000 32) : IVec S3200000 32 :=
  (shapeCast _ (extractStridedSlice S1x3200000 ![1, 0] a1 slices_S2x3200000_S1x3200000_1_0) shapeCasts_S1x3200000_S3200000)

/-- The degree with self loops: ones accumulated at the targets of the edges followed by one loop per node. -/
def refDeg (col : IVec S3200000 32) : FVec Ideal S100000 .f32 :=
  (Host.scatterAdd scatter_S100000_S3300000x1_S3300000_n_0_0_1 (broadcastInDim S100000 ![] bcast_S_S100000 (constant (F := Ideal) S_ .f32 0x00000000#32)) (broadcastInDim S3300000x1 ![0] bcast_S3300000_S3300000x1_0 (concatenate S3300000 0 [⟨S3200000, col⟩, ⟨S100000, (iotaInDim S100000 32 0)⟩] concatenates_S3200000_S100000_S3300000_d0)) (broadcastInDim S3300000 ![] bcast_S_S3300000 (constant (F := Ideal) S_ .f32 0x3F800000#32)))

/-- `deg^(-1/2)` where the degree is positive, zero elsewhere. -/
def refDinv (col : IVec S3200000 32) : FVec Ideal S100000 .f32 :=
  (select (cmpf (F := Ideal) .ogt (refDeg col) (broadcastInDim S100000 ![] bcast_S_S100000 (constant (F := Ideal) S_ .f32 0x00000000#32))) (Host.rsqrt (refDeg col)) (broadcastInDim S100000 ![] bcast_S_S100000 (id (constant (F := Ideal) S_ .f32 0x00000000#32))))

/-- The graph convolution before the rectifier. -/
def refGcn (xw : FVec Ideal S100000x64 .f32) (row col : IVec S3200000 32) (a5 : FVec Ideal S64 .f32) : FVec Ideal S100000x64 .f32 :=
  (addf (Host.scatterAdd scatter_S100000x64_S3300000x1_S3300000x64_1_0_0_1 (broadcastInDim S100000x64 ![] bcast_S_S100000x64 (constant (F := Ideal) S_ .f32 0x00000000#32)) (broadcastInDim S3300000x1 ![0] bcast_S3300000_S3300000x1_0 (concatenate S3300000 0 [⟨S3200000, col⟩, ⟨S100000, (iotaInDim S100000 32 0)⟩] concatenates_S3200000_S100000_S3300000_d0)) (mulf (Host.gather gather_S100000x64_S3300000x1_S3300000x64_1_0_n_n_0_1_164 xw (broadcastInDim S3300000x1 ![0] bcast_S3300000_S3300000x1_0 (select (cmpi .slt (concatenate S3300000 0 [⟨S3200000, row⟩, ⟨S100000, (iotaInDim S100000 32 0)⟩] concatenates_S3200000_S100000_S3300000_d0) (broadcastInDim S3300000 ![] bcast_S_S3300000 (constantI S_ 32 0#32))) (addi (concatenate S3300000 0 [⟨S3200000, row⟩, ⟨S100000, (iotaInDim S100000 32 0)⟩] concatenates_S3200000_S100000_S3300000_d0) (broadcastInDim S3300000 ![] bcast_S_S3300000 (constantI S_ 32 100000#32))) (concatenate S3300000 0 [⟨S3200000, row⟩, ⟨S100000, (iotaInDim S100000 32 0)⟩] concatenates_S3200000_S100000_S3300000_d0)))) (broadcastInDim S3300000x64 ![0, 1] bcast_S3300000x1_S3300000x64_0_1 (broadcastInDim S3300000x1 ![0] bcast_S3300000_S3300000x1_0 (mulf (Host.gather gather_S100000_S3300000x1_S3300000_n_0_n_n_0_1_1 (refDinv col) (broadcastInDim S3300000x1 ![0] bcast_S3300000_S3300000x1_0 (select (cmpi .slt (concatenate S3300000 0 [⟨S3200000, row⟩, ⟨S100000, (iotaInDim S100000 32 0)⟩] concatenates_S3200000_S100000_S3300000_d0) (broadcastInDim S3300000 ![] bcast_S_S3300000 (constantI S_ 32 0#32))) (addi (concatenate S3300000 0 [⟨S3200000, row⟩, ⟨S100000, (iotaInDim S100000 32 0)⟩] concatenates_S3200000_S100000_S3300000_d0) (broadcastInDim S3300000 ![] bcast_S_S3300000 (constantI S_ 32 100000#32))) (concatenate S3300000 0 [⟨S3200000, row⟩, ⟨S100000, (iotaInDim S100000 32 0)⟩] concatenates_S3200000_S100000_S3300000_d0)))) (Host.gather gather_S100000_S3300000x1_S3300000_n_0_n_n_0_1_1 (refDinv col) (broadcastInDim S3300000x1 ![0] bcast_S3300000_S3300000x1_0 (select (cmpi .slt (concatenate S3300000 0 [⟨S3200000, col⟩, ⟨S100000, (iotaInDim S100000 32 0)⟩] concatenates_S3200000_S100000_S3300000_d0) (broadcastInDim S3300000 ![] bcast_S_S3300000 (constantI S_ 32 0#32))) (addi (concatenate S3300000 0 [⟨S3200000, col⟩, ⟨S100000, (iotaInDim S100000 32 0)⟩] concatenates_S3200000_S100000_S3300000_d0) (broadcastInDim S3300000 ![] bcast_S_S3300000 (constantI S_ 32 100000#32))) (concatenate S3300000 0 [⟨S3200000, col⟩, ⟨S100000, (iotaInDim S100000 32 0)⟩] concatenates_S3200000_S100000_S3300000_d0))))))))) (broadcastInDim S100000x64 ![0, 1] bcast_S1x64_S100000x64_0_1 (broadcastInDim S1x64 ![1] bcast_S64_S1x64_1 a5)))

/-- The rectifier over the node embeddings. -/
def refRelu (h0 : FVec Ideal S100000x64 .f32) : FVec Ideal S100000x64 .f32 :=
  (maximumf h0 (broadcastInDim S100000x64 ![] bcast_S_S100000x64 (constant (F := Ideal) S_ .f32 0x00000000#32)))

/-- The member nodes' embeddings gathered and averaged per graph (an empty graph divides by one). -/
def refPool (h : FVec Ideal S100000x64 .f32) (a2 a3 : IVec S500000 32) : FVec Ideal S1024x64 .f32 :=
  (Host.divf (Host.scatterAdd scatter_S1024x64_S500000x1_S500000x64_1_0_0_1 (broadcastInDim S1024x64 ![] bcast_S_S1024x64 (constant (F := Ideal) S_ .f32 0x00000000#32)) (broadcastInDim S500000x1 ![0] bcast_S500000_S500000x1_0 a3) (Host.gather gather_S100000x64_S500000x1_S500000x64_1_0_n_n_0_1_164 h (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 100000#32))) a2)))) (broadcastInDim S1024x64 ![0, 1] bcast_S1024x1_S1024x64_0_1 (broadcastInDim S1024x1 ![0] bcast_S1024_S1024x1_0 (maximumf (Host.scatterAdd scatter_S1024_S500000x1_S500000_n_0_0_1 (broadcastInDim S1024 ![] bcast_S_S1024 (constant (F := Ideal) S_ .f32 0x00000000#32)) (broadcastInDim S500000x1 ![0] bcast_S500000_S500000x1_0 a3) (broadcastInDim S500000 ![] bcast_S_S500000 (constant (F := Ideal) S_ .f32 0x3F800000#32))) (broadcastInDim S1024 ![] bcast_S_S1024 (constant (F := Ideal) S_ .f32 0x3F800000#32))))))

/-- The predictor's hidden layer: `max(p · W1 + b1, 0)`. -/
def refZ (p : FVec Ideal S1024x64 .f32) (a6 : FVec Ideal S64x64 .f32) (a7 : FVec Ideal S64 .f32) : FVec Ideal S1024x64 .f32 :=
  (maximumf (addf (Host.dotGeneral dot_S1024x64_S64x64_S1024x64_1_0_0_1_n_n none p a6) (broadcastInDim S1024x64 ![0, 1] bcast_S1x64_S1024x64_0_1 (broadcastInDim S1x64 ![1] bcast_S64_S1x64_1 a7))) (broadcastInDim S1024x64 ![] bcast_S_S1024x64 (constant (F := Ideal) S_ .f32 0x00000000#32)))

/-- The batch mean of the hidden layer, per feature. -/
def refMu (z : FVec Ideal S1024x64 .f32) : FVec Ideal S64 .f32 :=
  (Host.divf (Host.reduceAdd z (constant (F := Ideal) S_ .f32 0x00000000#32) reducesTo_S1024x64_S64_d0 h_S_) (broadcastInDim S64 ![] bcast_S_S64 (constant (F := Ideal) S_ .f32 0x44800000#32)))

/-- The predictor's output from its hidden layer and batch mean: normalise, scale, shift, project. -/
def refHead (z : FVec Ideal S1024x64 .f32) (mu : FVec Ideal S64 .f32) (a8 a9 : FVec Ideal S64 .f32) (a10 : FVec Ideal S64x1 .f32) (a11 : FVec Ideal S1 .f32) : FVec Ideal S1024x1 .f32 :=
  addf (Host.dotGeneral dot_S1024x64_S64x1_S1024x1_1_0_0_1_n_n none (addf (mulf (mulf (subf z (broadcastInDim S1024x64 ![0, 1] bcast_S1x64_S1024x64_0_1 (broadcastInDim S1x64 ![1] bcast_S64_S1x64_1 mu))) (broadcastInDim S1024x64 ![0, 1] bcast_S1x64_S1024x64_0_1 (broadcastInDim S1x64 ![1] bcast_S64_S1x64_1 (Host.rsqrt (addf (Host.divf (Host.reduceAdd (mulf (subf z (broadcastInDim S1024x64 ![0, 1] bcast_S1x64_S1024x64_0_1 (broadcastInDim S1x64 ![1] bcast_S64_S1x64_1 mu))) (subf z (broadcastInDim S1024x64 ![0, 1] bcast_S1x64_S1024x64_0_1 (broadcastInDim S1x64 ![1] bcast_S64_S1x64_1 mu)))) (constant (F := Ideal) S_ .f32 0x00000000#32) reducesTo_S1024x64_S64_d0 h_S_) (broadcastInDim S64 ![] bcast_S_S64 (constant (F := Ideal) S_ .f32 0x44800000#32))) (broadcastInDim S64 ![] bcast_S_S64 (constant (F := Ideal) S_ .f32 0x3727C5AC#32))))))) (broadcastInDim S1024x64 ![0, 1] bcast_S1x64_S1024x64_0_1 (broadcastInDim S1x64 ![1] bcast_S64_S1x64_1 a8))) (broadcastInDim S1024x64 ![0, 1] bcast_S1x64_S1024x64_0_1 (broadcastInDim S1x64 ![1] bcast_S64_S1x64_1 a9))) a10) (broadcastInDim S1024x1 ![0, 1] bcast_S1x1_S1024x1_0_1 (broadcastInDim S1x1 ![1] bcast_S1_S1x1_1 a11))

/-- The predictor on the pooled embeddings. -/
def refPredictor (p : FVec Ideal S1024x64 .f32) (a6 : FVec Ideal S64x64 .f32) (a7 a8 a9 : FVec Ideal S64 .f32) (a10 : FVec Ideal S64x1 .f32) (a11 : FVec Ideal S1 .f32) : FVec Ideal S1024x1 .f32 :=
  refHead (refZ p a6 a7) (refMu (refZ p a6 a7)) a8 a9 a10 a11

end Cert.Bridge.Ref

end
-- ==== Proof.RefValue.lean ====
/-
  The reference program's result is the composition of its stages.
-/
import proofs.«105521_j74612171866465_2_alg».proof.Proof.ReferenceRunPatched
import proofs.«105521_j74612171866465_2_alg».proof.Proof.RefTerms

set_option maxRecDepth 16384

noncomputable section

namespace Cert.Bridge.RefValue

open Cert.ReferenceIdeal Cert.ReferenceIdeal.Gen Idealize.ShloMosaic Idealize.ShloMosaic.TcCoe Idealize.SL.Sem

/-- The reference's composed result term, stage by stage: predictor ∘ pool ∘ rectifier ∘ convolution ∘ projection. -/
theorem res_eq (m : (ℓ : Loc nD τ sig) → Buf (Elt Ideal) ℓ) (c : Dev nD) :
    Cert.ReferenceIdeal.ValueP.res_main_v100 (F := Ideal) m c
      = Ref.refPredictor
          (Ref.refPool
            (Ref.refRelu (Ref.refGcn (Ref.refXW (m ((c.tc : Thread nD τ).loc main_arg0)) (m ((c.tc : Thread nD τ).loc main_arg4)))
              (Ref.refRow (m ((c.tc : Thread nD τ).loc main_arg1))) (Ref.refCol (m ((c.tc : Thread nD τ).loc main_arg1)))
              (m ((c.tc : Thread nD τ).loc main_arg5))))
            (m ((c.tc : Thread nD τ).loc main_arg2)) (m ((c.tc : Thread nD τ).loc main_arg3)))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.ValueP.res_main_v100
  rfl

end Cert.Bridge.RefValue

end
-- ==== Proof.KernelTerms.lean ====
/-
  The kernel program's host stages between and around its two regions.

  The kernel program computes the same quantities as the reference in another arrangement: the degree as the count of
  the edges into a node plus one (the loop is not appended to the edge list), `dinv = deg^(-1/2)`, the scaled
  embeddings `hs = xw · dinv`, and
  `out[c] = dinv[c] · Σ_{edges e into c} hs[row e] + (dinv[c] · dinv[c]) · xw[c] + b`;
  then the rectifier, the gather of the member nodes and their mean per graph exactly as the reference spells them.
-/
import proofs.«105521_j74612171866465_2_alg».proof.Proof.Gen.KernelIdeal
import Idealize.ShloMosaic.PureOps.Ideal

set_option maxRecDepth 8192

noncomputable section

namespace Cert.Bridge.Ker

open Cert.KernelIdeal Cert.KernelIdeal.Gen Idealize.ShloMosaic Idealize.ShloMosaic.TcCoe

/-- One row of the edge list as a flat vector (`r = 0`: sources, `r = 1`: targets). -/
def kerRow (a1 : IVec S2x3200000 32) : IVec S3200000 32 :=
  (shapeCast _ (extractStridedSlice S1x3200000 ![0, 0] a1 slices_S2x3200000_S1x3200000_0_0) shapeCasts_S1x3200000_S3200000)
def kerCol (a1 : IVec S2x3200000 32) : IVec S3200000 32 :=
  (shapeCast _ (extractStridedSlice S1x3200000 ![1, 0] a1 slices_S2x3200000_S1x3200000_1_0) shapeCasts_S1x3200000_S3200000)

/-- The degree: ones accumulated at the targets of the edges, plus one for the node's own loop. -/
def kerDeg (col : IVec S3200000 32) : FVec Ideal S100000 .f32 :=
  addf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 col) (broadcastInDim S3200000 ![] bcast_S_S3200000 (constant (F := Ideal) S_ .f32 0x3F800000#32))) (broadcastInDim S100000 ![] bcast_S_S100000 (constant (F := Ideal) S_ .f32 0x3F800000#32))

/-- `deg^(-1/2)`. -/
def kerDinv (col : IVec S3200000 32) : FVec Ideal S100000 .f32 :=
  Host.rsqrt (kerDeg col)

/-- The source index of an edge with a negative index wrapped around, as the gather reads it. -/
def kerWrap (row : IVec S3200000 32) : IVec S3200000 32 :=
  select (cmpi .slt row (broadcastInDim S3200000 ![] bcast_S_S3200000 (constantI S_ 32 0#32))) (addi row (broadcastInDim S3200000 ![] bcast_S_S3200000 (constantI S_ 32 100000#32))) row

/-- The graph convolution before the rectifier. -/
def kerGcn (xw : FVec Ideal S100000x64 .f32) (row col : IVec S3200000 32) (a5 : FVec Ideal S64 .f32) : FVec Ideal S100000x64 .f32 :=
  addf (addf (mulf (broadcastInDim S100000x64 ![0, 1] bcast_S100000x1_S100000x64_0_1 (broadcastInDim S100000x1 ![0] bcast_S100000_S100000x1_0 (kerDinv col))) (Host.scatterAdd scatter_S100000x64_S3200000x1_S3200000x64_1_0_0_1 (broadcastInDim S100000x64 ![] bcast_S_S100000x64 (constant (F := Ideal) S_ .f32 0x00000000#32)) (broadcastInDim S3200000x1 ![0] bcast_S3200000_S3200000x1_0 col) (Host.gather gather_S100000x64_S3200000x1_S3200000x64_1_0_n_n_0_1_164 (mulf xw (broadcastInDim S100000x64 ![0, 1] bcast_S100000x1_S100000x64_0_1 (broadcastInDim S100000x1 ![0] bcast_S100000_S100000x1_0 (kerDinv col)))) (broadcastInDim S3200000x1 ![0] bcast_S3200000_S3200000x1_0 (kerWrap row))))) (mulf (broadcastInDim S100000x64 ![0, 1] bcast_S100000x1_S100000x64_0_1 (mulf (broadcastInDim S100000x1 ![0] bcast_S100000_S100000x1_0 (kerDinv col)) (broadcastInDim S100000x1 ![0] bcast_S100000_S100000x1_0 (kerDinv col)))) xw)) (broadcastInDim S100000x64 ![0, 1] bcast_S1x64_S100000x64_0_1 (broadcastInDim S1x64 ![1] bcast_S64_S1x64_1 a5))

/-- The rectifier over the node embeddings. -/
def kerRelu (h0 : FVec Ideal S100000x64 .f32) : FVec Ideal S100000x64 .f32 :=
  (maximumf h0 (broadcastInDim S100000x64 ![] bcast_S_S100000x64 (constant (F := Ideal) S_ .f32 0x00000000#32)))

/-- The member nodes' embeddings gathered and averaged per graph (an empty graph divides by one). -/
def kerPool (h : FVec Ideal S100000x64 .f32) (a2 a3 : IVec S500000 32) : FVec Ideal S1024x64 .f32 :=
  (Host.divf (Host.scatterAdd scatter_S1024x64_S500000x1_S500000x64_1_0_0_1 (broadcastInDim S1024x64 ![] bcast_S_S1024x64 (constant (F := Ideal) S_ .f32 0x00000000#32)) (broadcastInDim S500000x1 ![0] bcast_S500000_S500000x1_0 a3) (Host.gather gather_S100000x64_S500000x1_S500000x64_1_0_n_n_0_1_164 h (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 100000#32))) a2)))) (broadcastInDim S1024x64 ![0, 1] bcast_S1024x1_S1024x64_0_1 (broadcastInDim S1024x1 ![0] bcast_S1024_S1024x1_0 (maximumf (Host.scatterAdd scatter_S1024_S500000x1_S500000_n_0_0_1 (broadcastInDim S1024 ![] bcast_S_S1024 (constant (F := Ideal) S_ .f32 0x00000000#32)) (broadcastInDim S500000x1 ![0] bcast_S500000_S500000x1_0 a3) (broadcastInDim S500000 ![] bcast_S_S500000 (constant (F := Ideal) S_ .f32 0x3F800000#32))) (broadcastInDim S1024 ![] bcast_S_S1024 (constant (F := Ideal) S_ .f32 0x3F800000#32))))))

end Cert.Bridge.Ker

end
-- ==== Proof.Predictor.lean ====
import proofs.«105521_j74612171866465_2_alg».proof.Proof.Gen.KernelIdeal.Frame
import Idealize.ShloMosaic.Lib.Pipeline.Value
import Idealize.ShloMosaic.PureOps.Ideal

/-!
# The predictor region as one function of whole arrays

The second kernel region runs on a grid of a single point, and every one of its eight windows has a
block as large as its array, taken at block index (0, 0). So the block a window stages IS the array,
the body's single store covers the whole output buffer, and the one write-back replaces the whole
output array. Hence after the region the output array holds the body's arithmetic applied to the
seven input arrays as the region found them.

The body's arithmetic, on a pooled matrix `p` (1024 × 64), weights `w1` (64 × 64), row vectors
`b1`, `g`, `bt` (1 × 64), weights `w2` (64 × 1) and a scalar `b2` (1 × 1):
`z = max (p · w1 + b1) 0`, the column mean `mu = (Σ_r z_r) / 1024`, the column variance
`var = (Σ_r (z_r − mu)²) / 1024`, `zn = (z − mu) · rsqrt (var + eps) · g + bt`, and the result
`zn · w2 + b2` (1024 × 1).
-/

noncomputable section

namespace Cert.Bridge.Predictor

open Idealize.ShloMosaic Idealize.ShloMosaic.TcCoe Idealize.SL.Sem
open Idealize.ShloMosaic.Pipeline (Dat)
open Cert.KernelIdeal

/-- What the region's body computes of whole input arrays: the normalised hidden layer (as the body
    hands it on) followed by the output layer. -/
def kerPredictor (x0 : Vec Ideal S1024x64 .f32) (x1 : Vec Ideal S64x64 .f32) (x2 x3 x4 : Vec Ideal S1x64 .f32)
    (x5 : Vec Ideal S64x1 .f32) (x6 : Vec Ideal S1x1 .f32) : Vec Ideal S1024x1 .f32 :=
  Gen.k1_pay1 (Gen.k1_pay2 x0 x1 x2 x3 x4) x5 x6

/-- The offset (0, 0) of every access of the body. -/
theorem zero_offset : (![0, 0] : Fin 2 → Nat) = fun _ => 0 := funext fun a => by fin_cases a <;> rfl

/-- The body loads each staged block whole and stores once over the whole output buffer, so what it
    leaves there is its arithmetic applied to the staged blocks. -/
theorem out_eq (x0 : Vec Ideal S1024x64 .f32) (x1 : Vec Ideal S64x64 .f32) (x2 x3 x4 : Vec Ideal S1x64 .f32)
    (x5 : Vec Ideal S64x1 .f32) (x6 : Vec Ideal S1x1 .f32) :
    Gen.out1_7 x0 x1 x2 x3 x4 x5 x6 = kerPredictor x0 x1 x2 x3 x4 x5 x6 := by
  unfold Gen.out1_7
  rw [View.canon_unit_zero zero_offset]
  simp only [View.ld_unit_zero (S := S1024x64) zero_offset, View.ld_unit_zero (S := S64x64) zero_offset,
    View.ld_unit_zero (S := S1x64) zero_offset, View.ld_unit_zero (S := S64x1) zero_offset,
    View.ld_unit_zero (S := S1x1) zero_offset]
  rfl

variable (V : (c : Dev nD) → (b : Ref sig .tc) → Buf (Elt Ideal) ((c : Thread nD τ).loc b))

/-! ## Each input window's block at the one grid point is its whole array -/

theorem iblk_0 (c : Dev nD) (t : Fin cfg1.N) : (Gen.iblk1 V c 0 t : Vec Ideal S1024x64 .f32) = V c main_v55 := by
  obtain rfl := Gen.fin_N1 t
  have hz' : (fun a => win1_0.index Gen.t1_0 a * main_v55.ty.shape.size a) = fun _ => 0 :=
    funext fun a => by fin_cases a <;> decide
  exact Memref.read_access_unit_zero (Elt Ideal) main_v55 hz' (fun a => by rw [congrFun hz' a]; simp) (V c main_v55)

theorem iblk_1 (c : Dev nD) (t : Fin cfg1.N) : (Gen.iblk1 V c 1 t : Vec Ideal S64x64 .f32) = V c main_arg6 := by
  obtain rfl := Gen.fin_N1 t
  have hz' : (fun a => win1_1.index Gen.t1_0 a * main_arg6.ty.shape.size a) = fun _ => 0 :=
    funext fun a => by fin_cases a <;> decide
  exact Memref.read_access_unit_zero (Elt Ideal) main_arg6 hz' (fun a => by rw [congrFun hz' a]; simp) (V c main_arg6)

theorem iblk_2 (c : Dev nD) (t : Fin cfg1.N) : (Gen.iblk1 V c 2 t : Vec Ideal S1x64 .f32) = V c main_v56 := by
  obtain rfl := Gen.fin_N1 t
  have hz' : (fun a => win1_2.index Gen.t1_0 a * main_v56.ty.shape.size a) = fun _ => 0 :=
    funext fun a => by fin_cases a <;> decide
  exact Memref.read_access_unit_zero (Elt Ideal) main_v56 hz' (fun a => by rw [congrFun hz' a]; simp) (V c main_v56)

theorem iblk_3 (c : Dev nD) (t : Fin cfg1.N) : (Gen.iblk1 V c 3 t : Vec Ideal S1x64 .f32) = V c main_v57 := by
  obtain rfl := Gen.fin_N1 t
  have hz' : (fun a => win1_3.index Gen.t1_0 a * main_v57.ty.shape.size a) = fun _ => 0 :=
    funext fun a => by fin_cases a <;> decide
  exact Memref.read_access_unit_zero (Elt Ideal) main_v57 hz' (fun a => by rw [congrFun hz' a]; simp) (V c main_v57)

theorem iblk_4 (c : Dev nD) (t : Fin cfg1.N) : (Gen.iblk1 V c 4 t : Vec Ideal S1x64 .f32) = V c main_v58 := by
  obtain rfl := Gen.fin_N1 t
  have hz' : (fun a => win1_4.index Gen.t1_0 a * main_v58.ty.shape.size a) = fun _ => 0 :=
    funext fun a => by fin_cases a <;> decide
  exact Memref.read_access_unit_zero (Elt Ideal) main_v58 hz' (fun a => by rw [congrFun hz' a]; simp) (V c main_v58)

theorem iblk_5 (c : Dev nD) (t : Fin cfg1.N) : (Gen.iblk1 V c 5 t : Vec Ideal S64x1 .f32) = V c main_arg10 := by
  obtain rfl := Gen.fin_N1 t
  have hz' : (fun a => win1_5.index Gen.t1_0 a * main_arg10.ty.shape.size a) = fun _ => 0 :=
    funext fun a => by fin_cases a <;> decide
  exact Memref.read_access_unit_zero (Elt Ideal) main_arg10 hz' (fun a => by rw [congrFun hz' a]; simp) (V c main_arg10)

theorem iblk_6 (c : Dev nD) (t : Fin cfg1.N) : (Gen.iblk1 V c 6 t : Vec Ideal S1x1 .f32) = V c main_v59 := by
  obtain rfl := Gen.fin_N1 t
  have hz' : (fun a => win1_6.index Gen.t1_0 a * main_v59.ty.shape.size a) = fun _ => 0 :=
    funext fun a => by fin_cases a <;> decide
  exact Memref.read_access_unit_zero (Elt Ideal) main_v59 hz' (fun a => by rw [congrFun hz' a]; simp) (V c main_v59)

/-! ## The write-back and the array after the region -/

/-- What the one grid point writes back is the body's result on the whole input arrays, read through
    the output window's block, which is again the whole array. -/
theorem flushed_eq (c : Dev nD) (t : Fin cfg1.N) (hf : (cfg1.win 7).flush t = true) :
    (Gen.dat1 (F := Ideal) V c).flushed 7 t
      = ((cfg1.win 7).blk t).view.read (Elt Ideal)
          (kerPredictor (V c main_v55) (V c main_arg6) (V c main_v56) (V c main_v57) (V c main_v58) (V c main_arg10) (V c main_v59)) := by
  show (cfg1.win 7).cut (grid1.coords t) ((Gen.dat1 (F := Ideal) V c).after 7 t) = _
  rw [Gen.after1_7, out_eq, iblk_0, iblk_1, iblk_2, iblk_3, iblk_4, iblk_5, iblk_6]
  obtain rfl := Gen.fin_N1 t
  have hz' : (fun a => win1_7.index Gen.t1_0 a * main_v60.ty.shape.size a) = fun _ => 0 :=
    funext fun a => by fin_cases a <;> decide
  exact (Memref.read_access_unit_zero (Elt Ideal) main_v60 hz' (fun a => by rw [congrFun hz' a]; simp) _).symm

/-- Every index of the output array lies in the one point's block. -/
theorem covered (i : S1024x1.Idx) :
    ∃ t : Fin cfg1.N, (cfg1.win 7).flush t = true ∧ i ∈ ((cfg1.win 7).blk t).view.set := by
  refine ⟨Gen.t1_0, Gen.flush1_7 Gen.t1_0, ?_⟩
  show i ∈ ((View.whole main_v60).slice (win1_7.rect Gen.t1_0)).set
  rw [View.set_slice_whole, Rect.mem_set_unit]
  intro a
  have h0 : (i 0 : Nat) < 1024 := (i 0).isLt
  have h1 : (i 1 : Nat) < 1 := (i 1).isLt
  match a with
  | ⟨0, _⟩ =>
    show win1_7.index Gen.t1_0 0 * win1_7.size 0 ≤ (i 0 : Nat) ∧ (i 0 : Nat) < win1_7.index Gen.t1_0 0 * win1_7.size 0 + win1_7.xsize (grid1.coords Gen.t1_0) 0
    rw [show win1_7.index Gen.t1_0 0 * win1_7.size 0 = 0 from by decide +kernel, show win1_7.xsize (grid1.coords Gen.t1_0) 0 = 1024 from by decide +kernel]; omega
  | ⟨1, _⟩ =>
    show win1_7.index Gen.t1_0 1 * win1_7.size 1 ≤ (i 1 : Nat) ∧ (i 1 : Nat) < win1_7.index Gen.t1_0 1 * win1_7.size 1 + win1_7.xsize (grid1.coords Gen.t1_0) 1
    rw [show win1_7.index Gen.t1_0 1 * win1_7.size 1 = 0 from by decide +kernel, show win1_7.xsize (grid1.coords Gen.t1_0) 1 = 1 from by decide +kernel]; omega

/-- After the region, its output array holds the body's result on the whole input arrays as the
    region found them. -/
theorem region1_array (c : Dev nD) :
    (Gen.dat1 (F := Ideal) V c).arrAt 7 cfg1.N
      = kerPredictor (V c main_v55) (V c main_arg6) (V c main_v56) (V c main_v57) (V c main_v58) (V c main_arg10) (V c main_v59) :=
  (Gen.dat1 (F := Ideal) V c).arrAt_eq_of_cover 7 _ (flushed_eq V c) covered

end Cert.Bridge.Predictor

end
-- ==== Proof.ProjectionRef.lean ====
/-
  The whole-array product behind the projection, and the reference's contraction read as it.

  For a [100000,128] array x and a [128,64] array w the product x·w is the [100000,64] array whose entry at row r and
  column j is the sum over the 128 contraction positions k of x[r,k]·w[k,j].  The reference's contraction of axis 1 of x
  with axis 0 of w has, at an output index, exactly these operand positions: the left operand keeps the output's row and
  takes k on its second axis, the right operand takes k on its first axis and keeps the output's column.
-/
import proofs.«105521_j74612171866465_2_alg».proof.Proof.Gen.ReferenceIdeal
import Idealize.ShloMosaic.Lib.ValueIdx
import Idealize.ShloMosaic.PureOps.Ideal.Laws

noncomputable section

namespace Cert.Bridge.Projection

open Idealize.ShloMosaic Idealize.ShloMosaic.ValueIdx
open Cert.ReferenceIdeal (dot_S100000x128_S128x64_S100000x64_1_0_0_1_n_n)

/-- Row r = i 0 of the left factor at contraction position k. -/
abbrev rowAt (i : (⟨2, ![100000, 64]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩

/-- Column j = i 1 of the right factor at contraction position k. -/
abbrev colAt (i : (⟨2, ![100000, 64]⟩ : Shape).Idx) (k : Fin 128) : (⟨2, ![128, 64]⟩ : Shape).Idx := fun a => match a with
  | ⟨0, _⟩ => ⟨k.val, k.isLt⟩
  | ⟨1, _⟩ => ⟨(i 1).val, (i 1).isLt⟩

/-- The product x·w, entry by entry: (x·w)[r,j] = Σ_k x[r,k]·w[k,j]. -/
def XW (x : (⟨2, ![100000, 128]⟩ : Shape).Idx → EReal) (w : (⟨2, ![128, 64]⟩ : Shape).Idx → EReal) :
    (⟨2, ![100000, 64]⟩ : Shape).Idx → EReal :=
  fun i => ∑ k : Fin 128, x (rowAt i k) * w (colAt i k)

theorem XW_apply (x : (⟨2, ![100000, 128]⟩ : Shape).Idx → EReal) (w : (⟨2, ![128, 64]⟩ : Shape).Idx → EReal)
    (i : (⟨2, ![100000, 64]⟩ : Shape).Idx) : XW x w i = ∑ k : Fin 128, x (rowAt i k) * w (colAt i k) := rfl

/-- The left operand's position keeps the output's row … -/
theorem ref_lhs_0 (i : (⟨2, ![100000, 64]⟩ : Shape).Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin (⟨2, ![100000, 128]⟩ : Shape).rank) ∈ dot_S100000x128_S128x64_S100000x64_1_0_0_1_n_n.lhsBatch by decide),
    dif_pos (show (0 : Fin (⟨2, ![100000, 128]⟩ : Shape).rank) ∈ dot_S100000x128_S128x64_S100000x64_1_0_0_1_n_n.lhsNonContracting by decide)]
  rfl
/-- … and takes the contraction position on its second axis. -/
theorem ref_lhs_1 (i : (⟨2, ![100000, 64]⟩ : Shape).Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
/-- The right operand's position takes the contraction position on its first axis … -/
theorem ref_rhs_0 (i : (⟨2, ![100000, 64]⟩ : Shape).Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
/-- … and keeps the output's column. -/
theorem ref_rhs_1 (i : (⟨2, ![100000, 64]⟩ : Shape).Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin (⟨2, ![128, 64]⟩ : Shape).rank) ∈ dot_S100000x128_S128x64_S100000x64_1_0_0_1_n_n.rhsBatch by decide),
    dif_pos (show (1 : Fin (⟨2, ![128, 64]⟩ : Shape).rank) ∈ dot_S100000x128_S128x64_S100000x64_1_0_0_1_n_n.rhsNonContracting by decide)]
  rfl

/-- The reference's contraction of x with w is the product x·w. -/
theorem ref_dot_eq_XW (x : (⟨2, ![100000, 128]⟩ : Shape).Idx → EReal) (w : (⟨2, ![128, 64]⟩ : Shape).Idx → EReal) :
    Host.dotGeneral (F := Ideal) (φ₁ := .f32) (φ₂ := .f32) dot_S100000x128_S128x64_S100000x64_1_0_0_1_n_n none x w = XW x w := by
  funext i
  rw [XW_apply]
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = rowAt i k := funext fun a => Fin.ext (by
    match a with
    | ⟨0, _⟩ => exact ref_lhs_0 _ _
    | ⟨1, _⟩ => exact (ref_lhs_1 _ _).trans hk)
  have er : dot_S100000x128_S128x64_S100000x64_1_0_0_1_n_n.rhsIdx i ((contrEquiv1 dot_S100000x128_S128x64_S100000x64_1_0_0_1_n_n 128 rfl rfl).symm k) = colAt i k := funext fun a => Fin.ext (by
    match a with
    | ⟨0, _⟩ => exact (ref_rhs_0 _ _).trans hk
    | ⟨1, _⟩ => exact ref_rhs_1 _ _)
  rw [el, er]

end Cert.Bridge.Projection

end
-- ==== Proof.ProjectionBlock.lean ====
/-
  One block of the projection: what a grid point computes from its two input blocks.

  A grid point holds a [10000,128] block a of the left factor and the whole [128,64] right factor b.  It rounds both to
  the narrower float format (the identity on the extended reals) and multiplies them into a zero accumulator, so the
  [10000,64] block it stores has at row p and column q the sum over the 128 contraction positions k of a[p,k]·b[k,q].
-/
import proofs.«105521_j74612171866465_2_alg».proof.Proof.Gen.KernelIdeal.Skeleton
import Idealize.ShloMosaic.Lib.ValueIdx
import Idealize.ShloMosaic.PureOps.Ideal.Laws

noncomputable section

namespace Cert.Bridge.Projection

open Idealize.ShloMosaic Idealize.ShloMosaic.ValueIdx
open Cert.KernelIdeal (dot_S10000x128_S128x64_S10000x64_1_0_0_1_n_n)

/-- Row p = y 0 of the left block at contraction position k. -/
abbrev blockRowAt (y : (⟨2, ![10000, 64]⟩ : Shape).Idx) (k : Fin 128) : (⟨2, ![10000, 128]⟩ : Shape).Idx := fun a => match a with
  | ⟨0, _⟩ => ⟨(y 0).val, (y 0).isLt⟩
  | ⟨1, _⟩ => ⟨k.val, k.isLt⟩

/-- Column q = y 1 of the right factor at contraction position k. -/
abbrev blockColAt (y : (⟨2, ![10000, 64]⟩ : Shape).Idx) (k : Fin 128) : (⟨2, ![128, 64]⟩ : Shape).Idx := fun a => match a with
  | ⟨0, _⟩ => ⟨k.val, k.isLt⟩
  | ⟨1, _⟩ => ⟨(y 1).val, (y 1).isLt⟩

/-- The left operand's position keeps the output's row … -/
theorem blk_lhs_0 (y : (⟨2, ![10000, 64]⟩ : Shape).Idx) (q : dot_S10000x128_S128x64_S10000x64_1_0_0_1_n_n.contr.Idx) :
    (dot_S10000x128_S128x64_S10000x64_1_0_0_1_n_n.lhsIdx y q 0).val = (y 0).val := by
  unfold DotDims.lhsIdx
  rw [dif_neg (show ¬(0 : Fin (⟨2, ![10000, 128]⟩ : Shape).rank) ∈ dot_S10000x128_S128x64_S10000x64_1_0_0_1_n_n.lhsBatch by decide),
    dif_pos (show (0 : Fin (⟨2, ![10000, 128]⟩ : Shape).rank) ∈ dot_S10000x128_S128x64_S10000x64_1_0_0_1_n_n.lhsNonContracting by decide)]
  rfl
/-- … and takes the contraction position on its second axis. -/
theorem blk_lhs_1 (y : (⟨2, ![10000, 64]⟩ : Shape).Idx) (q : dot_S10000x128_S128x64_S10000x64_1_0_0_1_n_n.contr.Idx) :
    (dot_S10000x128_S128x64_S10000x64_1_0_0_1_n_n.lhsIdx y q 1).val = (q ⟨0, by decide⟩).val :=
  dot_S10000x128_S128x64_S10000x64_1_0_0_1_n_n.lhsIdx_val_of_single rfl y q
/-- The right operand's position takes the contraction position on its first axis … -/
theorem blk_rhs_0 (y : (⟨2, ![10000, 64]⟩ : Shape).Idx) (q : dot_S10000x128_S128x64_S10000x64_1_0_0_1_n_n.contr.Idx) :
    (dot_S10000x128_S128x64_S10000x64_1_0_0_1_n_n.rhsIdx y q 0).val = (q ⟨0, by decide⟩).val :=
  dot_S10000x128_S128x64_S10000x64_1_0_0_1_n_n.rhsIdx_val_of_single rfl y q
/-- … and keeps the output's column. -/
theorem blk_rhs_1 (y : (⟨2, ![10000, 64]⟩ : Shape).Idx) (q : dot_S10000x128_S128x64_S10000x64_1_0_0_1_n_n.contr.Idx) :
    (dot_S10000x128_S128x64_S10000x64_1_0_0_1_n_n.rhsIdx y q 1).val = (y 1).val := by
  unfold DotDims.rhsIdx
  rw [dif_neg (show ¬(1 : Fin (⟨2, ![128, 64]⟩ : Shape).rank) ∈ dot_S10000x128_S128x64_S10000x64_1_0_0_1_n_n.rhsBatch by decide),
    dif_pos (show (1 : Fin (⟨2, ![128, 64]⟩ : Shape).rank) ∈ dot_S10000x128_S128x64_S10000x64_1_0_0_1_n_n.rhsNonContracting by decide)]
  rfl

/-- The block a grid point stores, entry by entry: Σ_k a[p,k]·b[k,q]. -/
theorem block_product (a : (⟨2, ![10000, 128]⟩ : Shape).Idx → EReal) (b : (⟨2, ![128, 64]⟩ : Shape).Idx → EReal)
    (y : (⟨2, ![10000, 64]⟩ : Shape).Idx) :
    Cert.KernelIdeal.Gen.k0_pay1 (F := Ideal) a b y = ∑ k : Fin 128, a (blockRowAt y k) * b (blockColAt y k) := by
  unfold Cert.KernelIdeal.Gen.k0_pay1
  refine (Ideal.matmul_constant_zero_apply dot_S10000x128_S128x64_S10000x64_1_0_0_1_n_n none _ _ y).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx y ((contrEquiv1 dot_S10000x128_S128x64_S10000x64_1_0_0_1_n_n 128 rfl rfl).symm k) = blockRowAt y k := funext fun a => Fin.ext (by
    match a with
    | ⟨0, _⟩ => exact blk_lhs_0 _ _
    | ⟨1, _⟩ => exact (blk_lhs_1 _ _).trans hk)
  have er : dot_S10000x128_S128x64_S10000x64_1_0_0_1_n_n.rhsIdx y ((contrEquiv1 dot_S10000x128_S128x64_S10000x64_1_0_0_1_n_n 128 rfl rfl).symm k) = blockColAt y k := funext fun a => Fin.ext (by
    match a with
    | ⟨0, _⟩ => exact (blk_rhs_0 _ _).trans hk
    | ⟨1, _⟩ => exact blk_rhs_1 _ _)
  rw [el, er]
  rfl

end Cert.Bridge.Projection

end
-- ==== Proof.Projection.lean ====
/-
  The projection region: after its ten grid points the output array is the whole product x·W.

  The grid has ten points.  Point t reads rows 10000·t … 10000·t + 9999 of x (all 128 columns) and the whole of W, and
  writes rows 10000·t … 10000·t + 9999 of the output (all 64 columns).  Entry (p, q) of the block it writes is
  Σ_k x[10000·t + p, k]·W[k, q], which is entry (10000·t + p, q) of x·W: every point writes its block of the one array
  x·W.  Row r of the output lies in the block of point r / 10000, so the ten blocks cover the array, and the array ends
  holding x·W, which is the reference's contraction of x with W.
-/
import proofs.«105521_j74612171866465_2_alg».proof.Proof.Gen.KernelIdeal.Frame
import proofs.«105521_j74612171866465_2_alg».proof.Proof.ProjectionRef
import proofs.«105521_j74612171866465_2_alg».proof.Proof.ProjectionBlock
import Idealize.ShloMosaic.Lib.Pipeline.Value
import Idealize.ShloMosaic.Lib.Tactic

set_option maxRecDepth 16384

noncomputable section

namespace Cert.Bridge.Projection

open Idealize.ShloMosaic Idealize.ShloMosaic.TcCoe Idealize.SL.Sem Idealize.ShloMosaic.ValueIdx
open Idealize.ShloMosaic.Pipeline (Dat)
open Cert.KernelIdeal Cert.KernelIdeal.Gen

theorem zero_offsets : (![0, 0] : Fin 2 → Nat) = fun _ => 0 := funext fun a => by fin_cases a <;> rfl

/-- A block of the product from blocks of the factors: if a is rows 10000·n … of X, b is W, and y sits at row
    10000·n + y₀ of the output, the block product at y is the whole product at that entry. -/
theorem block_of_product (X : (⟨2, ![100000, 128]⟩ : Shape).Idx → EReal) (W : (⟨2, ![128, 64]⟩ : Shape).Idx → EReal)
    (a : (⟨2, ![10000, 128]⟩ : Shape).Idx → EReal) (b : (⟨2, ![128, 64]⟩ : Shape).Idx → EReal)
    (y : (⟨2, ![10000, 64]⟩ : Shape).Idx) (i : (⟨2, ![100000, 64]⟩ : Shape).Idx) (n : Nat)
    (ha : ∀ (x : (⟨2, ![10000, 128]⟩ : Shape).Idx) (k : (⟨2, ![100000, 128]⟩ : Shape).Idx),
      (k 0).val = 10000 * n + (x 0).val → (k 1).val = (x 1).val → a x = X k)
    (hb : ∀ x, b x = W x)
    (hi0 : (i 0).val = 10000 * n + (y 0).val) (hi1 : (i 1).val = (y 1).val) :
    k0_pay1 (F := Ideal) a b y = XW X W i := by
  rw [block_product, XW_apply]
  refine Finset.sum_congr rfl fun k _ => ?_
  rw [ha (blockRowAt y k) (rowAt i k) (by show (i 0).val = 10000 * n + (y 0).val; exact hi0) rfl, hb]
  refine congrArg (fun j => X (rowAt i k) * W j) ?_
  funext d; apply Fin.ext
  match d with
  | ⟨0, _⟩ => rfl
  | ⟨1, _⟩ => exact hi1.symm

variable (V : (c : Dev nD) → (b : Ref sig .tc) → Buf (Elt Ideal) ((c : Thread nD τ).loc b))

/-- The printed index maps over the ten grid points: the left factor's and the output's block index is (t, 0), the
    right factor's is (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is rows 10000·t … of x. -/
theorem left_block (c : Dev nD) (t : Fin cfg0.N) (x : (⟨2, ![10000, 128]⟩ : Shape).Idx) (k : (⟨2, ![100000, 128]⟩ : Shape).Idx)
    (hk0 : (k 0).val = 10000 * t.val + (x 0).val) (hk1 : (k 1).val = (x 1).val) :
    (iblk0 V c 0 t : (⟨2, ![10000, 128]⟩ : Shape).Idx → EReal) x = (V c main_arg0 : (⟨2, ![100000, 128]⟩ : Shape).Idx → EReal) k := by
  obtain ⟨e0, e1, -, -, -, -⟩ := index_maps t
  unfold iblk0
  rw [View.read_apply]
  show V c main_arg0 (((cfg0.win 0).blk t).view.emb x) = V c main_arg0 k
  refine congrArg (V c main_arg0) ?_
  funext d; apply Fin.ext
  match d with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The right factor's block at every point is the whole of W. -/
theorem right_block (c : Dev nD) (t : Fin cfg0.N) (x : (⟨2, ![128, 64]⟩ : Shape).Idx) :
    (iblk0 V c 1 t : (⟨2, ![128, 64]⟩ : Shape).Idx → EReal) x = (V c main_arg4 : (⟨2, ![128, 64]⟩ : Shape).Idx → EReal) x := by
  obtain ⟨-, -, e0, e1, -, -⟩ := index_maps t
  unfold iblk0
  rw [View.read_apply]
  show V c main_arg4 (((cfg0.win 1).blk t).view.emb x) = V c main_arg4 x
  refine congrArg (V c main_arg4) ?_
  funext d; apply Fin.ext
  match d with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- What point t writes back is its block of x·W: entry (p, q) of the stored block is Σ_k x[10000·t + p, k]·W[k, q]. -/
theorem flushed_block (c : Dev nD) (t : Fin cfg0.N) :
    (dat0 V c).flushed 2 t = ((cfg0.win 2).blk t).view.read (Elt Ideal) (XW (V c main_arg0) (V c main_arg4)) := by
  obtain ⟨-, -, -, -, e0, e1⟩ := index_maps t
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  funext y
  show k0_pay1 (F := Ideal) (iblk0 V c 0 t) (iblk0 V c 1 t) y = XW (V c main_arg0) (V c main_arg4) (((cfg0.win 2).blk t).view.emb y)
  refine block_of_product (V c main_arg0) (V c main_arg4) (iblk0 V c 0 t) (iblk0 V c 1 t) y _ t.val
    (fun x k h0 h1 => left_block V c t x k h0 h1) (fun x => right_block V c t x) ?_ ?_
  · show win0_2.index t (0 : Fin 2) * 10000 + 1 * (y 0).val = 10000 * t.val + (y 0).val; rw [e0]; omega
  · show win0_2.index t (1 : Fin 2) * 64 + 1 * (y 1).val = (y 1).val; rw [e1]; omega

/-- An index of the output is in point t's block iff each coordinate is in the block's range on its axis. -/
theorem mem_block (t : Fin cfg0.N) (i : (⟨2, ![100000, 64]⟩ : Shape).Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Row r of the output lies in the block of point r / 10000: the ten blocks cover the array. -/
theorem blocks_cover (i : (⟨2, ![100000, 64]⟩ : Shape).Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e0, e1⟩ := index_maps t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- After the ten grid points the output array is the whole product x·W, the reference's contraction of x with W. -/
theorem region0_array (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none (V c main_arg0) (V c main_arg4) :=
  ((dat0 V c).arrAt_eq_of_cover 2 (XW (V c main_arg0) (V c main_arg4)) (fun t _ => flushed_block V c t) blocks_cover).trans
    (ref_dot_eq_XW (V c main_arg0) (V c main_arg4)).symm

end Cert.Bridge.Projection

end
-- ==== Proof.KernelValue.lean ====
/-
  The kernel program's result as one term of its arguments.

  Between its two regions the kernel program runs host lines; each stretch of host lines maps the buffers' contents at
  its entry to their contents at its exit, one buffer per line.  Read at the buffer a later stage consumes, a stretch is
  the composition of its lines: the two rows of the edge list, the graph convolution, the rectifier, the mean pool and
  the reshapes of the predictor's vectors.  A buffer no line of a stretch writes keeps its contents.
-/
import proofs.«105521_j74612171866465_2_alg».proof.Proof.Gen.KernelIdeal.Frame
import proofs.«105521_j74612171866465_2_alg».proof.Proof.KernelTerms
import proofs.«105521_j74612171866465_2_alg».proof.Proof.Predictor
import proofs.«105521_j74612171866465_2_alg».proof.Proof.Projection
import Idealize.ShloMosaic.Lib.StableHlo.Run

set_option maxRecDepth 16384

noncomputable section

namespace Cert.Bridge.KernelValue

open Idealize.ShloMosaic Idealize.ShloMosaic.TcCoe Idealize.SL.Sem Idealize.ShloMosaic.StableHlo
open Cert.KernelIdeal Cert.KernelIdeal.Gen
open Cert.Bridge

variable (Wv : Valuation τ sig (Elt Ideal))

/-! ## The first stretch: the two rows of the edge list -/

theorem rows_stage : StableHlo.after hostOps0 Wv (Proc.devRef .tc main_v1) = Ker.kerRow (Wv (Proc.devRef .tc main_arg1)) := by
  after_results; rfl

theorem cols_stage : StableHlo.after hostOps0 Wv (Proc.devRef .tc main_v3) = Ker.kerCol (Wv (Proc.devRef .tc main_arg1)) := by
  after_results; rfl

/-! ## The second stretch: the graph convolution -/

theorem gcn_stage : StableHlo.after hostOps1 Wv (Proc.devRef .tc main_v35)
    = Ker.kerGcn (Wv (Proc.devRef .tc main_v4)) (Wv (Proc.devRef .tc main_v1)) (Wv (Proc.devRef .tc main_v3)) (Wv (Proc.devRef .tc main_arg5)) := by
  after_results_simp; rfl

/-! ## The rectifier -/

theorem relu_stage : StableHlo.after hostOps1_1 Wv (Proc.devRef .tc main_v36) = Ker.kerRelu (Wv (Proc.devRef .tc main_v35)) := by
  after_results; rfl

/-! ## The last stretch: the mean pool and the predictor's vectors as rows -/

theorem pool_stage : StableHlo.after hostOps1_2 Wv (Proc.devRef .tc main_v55)
    = Ker.kerPool (Wv (Proc.devRef .tc main_v36)) (Wv (Proc.devRef .tc main_arg2)) (Wv (Proc.devRef .tc main_arg3)) := by
  after_results_simp; rfl

theorem row7_stage : StableHlo.after hostOps1_2 Wv (Proc.devRef .tc main_v56) = shapeCast S1x64 (Wv (Proc.devRef .tc main_arg7)) shapeCasts_S64_S1x64 := by
  after_results; rfl
theorem row8_stage : StableHlo.after hostOps1_2 Wv (Proc.devRef .tc main_v57) = shapeCast S1x64 (Wv (Proc.devRef .tc main_arg8)) shapeCasts_S64_S1x64 := by
  after_results; rfl
theorem row9_stage : StableHlo.after hostOps1_2 Wv (Proc.devRef .tc main_v58) = shapeCast S1x64 (Wv (Proc.devRef .tc main_arg9)) shapeCasts_S64_S1x64 := by
  after_results; rfl
theorem row11_stage : StableHlo.after hostOps1_2 Wv (Proc.devRef .tc main_v59) = shapeCast S1x1 (Wv (Proc.devRef .tc main_arg11)) shapeCasts_S1_S1x1 := by
  after_results; rfl

/-! ## What each stretch leaves alone -/

/-- The buffers the first stretch writes. -/
abbrev written0 : List (Ref sig .tc) := [main_v0, main_v1, main_v2, main_v3]
/-- The buffers the second stretch writes. -/
abbrev written1 : List (Ref sig .tc) := [main_cst, main_v5, main_cst_0, main_v6, main_v7, main_v8, main_cst_1, main_v9, main_v10, main_v11,
  main_v12, main_v13, main_v14, main_c, main_v15, main_v16, main_c_2, main_v17, main_v18, main_v19, main_v20, main_v21, main_cst_3, main_v22,
  main_v23, main_v24, main_v25, main_v26, main_v27, main_v28, main_v29, main_v30, main_v31, main_v32, main_v33, main_v34, main_v35]
/-- The buffers the rectifier writes. -/
abbrev written1_1 : List (Ref sig .tc) := [main_call0_cst, main_call0_v0, main_v36]
/-- The buffers the last stretch writes. -/
abbrev written1_2 : List (Ref sig .tc) := [main_c_4, main_v37, main_v38, main_c_5, main_v39, main_v40, main_v41, main_v42, main_v43, main_cst_6,
  main_v44, main_v45, main_v46, main_cst_7, main_v47, main_cst_8, main_v48, main_v49, main_v50, main_cst_9, main_v51, main_v52, main_v53, main_v54,
  main_v55, main_v56, main_v57, main_v58, main_v59]

/-- Every line of a stretch writes one of the listed buffers. -/
macro "writes_listed" : tactic =>
  `(tactic| (simp only [hostOps0, hostOps1, hostOps1_1, hostOps1_2, List.Forall, StableHlo.nullary_writes, StableHlo.unary_writes,
               StableHlo.binary_writes, StableHlo.ternary_writes, StableHlo.reshape_writes, Finset.singleton_subset_iff]
             repeat' apply And.intro
             all_goals exact List.mem_toFinset.mpr (List.mem_map_of_mem (by decide))))

theorem keeps0 (r : Ref sig .tc) (hr : r ∉ written0) : StableHlo.after hostOps0 Wv (Proc.devRef .tc r) = Wv (Proc.devRef .tc r) :=
  StableHlo.after_of_writes_sub (W := written0) hostOps0 Wv (by writes_listed) hr
theorem keeps1 (r : Ref sig .tc) (hr : r ∉ written1) : StableHlo.after hostOps1 Wv (Proc.devRef .tc r) = Wv (Proc.devRef .tc r) :=
  StableHlo.after_of_writes_sub (W := written1) hostOps1 Wv (by writes_listed) hr
theorem keeps1_1 (r : Ref sig .tc) (hr : r ∉ written1_1) : StableHlo.after hostOps1_1 Wv (Proc.devRef .tc r) = Wv (Proc.devRef .tc r) :=
  StableHlo.after_of_writes_sub (W := written1_1) hostOps1_1 Wv (by writes_listed) hr
theorem keeps1_2 (r : Ref sig .tc) (hr : r ∉ written1_2) : StableHlo.after hostOps1_2 Wv (Proc.devRef .tc r) = Wv (Proc.devRef .tc r) :=
  StableHlo.after_of_writes_sub (W := written1_2) hostOps1_2 Wv (by writes_listed) hr

/-! ## The chain from the launch to the result -/

variable (m : (ℓ : Loc nD τ sig) → Buf (Elt Ideal) ℓ) (ρ : Dev nD → PrngReg) (c : Dev nD)

/-- A buffer that nothing before the last stretch writes holds, at that stretch's entry, what it held at the launch. -/
theorem W4_launch (r : Ref sig .tc) (h0 : r ∉ written0) (h1 : r ∉ written1) (h11 : r ∉ written1_1)
    (hw : ∀ w, Pipeline.arrRef spec0 w ≠ r) : W4 m ρ c (Proc.devRef .tc r) = m ((c : Thread nD τ).loc r) :=
  (keeps1_1 (W3 m ρ c) r h11).trans <| (keeps1 (W2 m ρ c) r h1).trans <| (W2_of_ne m ρ c r hw).trans <| keeps0 (W0 m ρ c) r h0

/-- The same at the predictor region's entry. -/
theorem W5_launch (r : Ref sig .tc) (h0 : r ∉ written0) (h1 : r ∉ written1) (h11 : r ∉ written1_1) (h12 : r ∉ written1_2)
    (hw : ∀ w, Pipeline.arrRef spec0 w ≠ r) : W5 m ρ c (Proc.devRef .tc r) = m ((c : Thread nD τ).loc r) :=
  (keeps1_2 (W4 m ρ c) r h12).trans (W4_launch m ρ c r h0 h1 h11 hw)

/-- The projection region's inputs are the launch's x and W. -/
theorem V1_x : V1 m ρ c main_arg0 = m ((c : Thread nD τ).loc main_arg0) := keeps0 (W0 m ρ c) main_arg0 (by decide)
theorem V1_w : V1 m ρ c main_arg4 = m ((c : Thread nD τ).loc main_arg4) := keeps0 (W0 m ρ c) main_arg4 (by decide)

/-- After the projection region its output array is the product x·W of the launch's arrays. -/
theorem W2_xw : W2 m ρ c (Proc.devRef .tc main_v4)
    = Host.dotGeneral (F := Ideal) (φ₁ := .f32) (φ₂ := .f32) Cert.ReferenceIdeal.dot_S100000x128_S128x64_S100000x64_1_0_0_1_n_n none
        (m ((c : Thread nD τ).loc main_arg0)) (m ((c : Thread nD τ).loc main_arg4)) :=
  (W2_arr m ρ c 2).trans <| (Projection.region0_array (V1 m ρ) c).trans <| by rw [V1_x m ρ c, V1_w m ρ c]

/-- The graph convolution of the launch's arrays. -/
theorem W3_gcn : W3 m ρ c (Proc.devRef .tc main_v35)
    = Ker.kerGcn (Host.dotGeneral (F := Ideal) (φ₁ := .f32) (φ₂ := .f32) Cert.ReferenceIdeal.dot_S100000x128_S128x64_S100000x64_1_0_0_1_n_n none
          (m ((c : Thread nD τ).loc main_arg0)) (m ((c : Thread nD τ).loc main_arg4)))
        (Ker.kerRow (m ((c : Thread nD τ).loc main_arg1))) (Ker.kerCol (m ((c : Thread nD τ).loc main_arg1)))
        (m ((c : Thread nD τ).loc main_arg5)) := by
  refine (gcn_stage (W2 m ρ c)).trans ?_
  rw [W2_xw m ρ c, W2_of_ne m ρ c main_v1 (by decide), W2_of_ne m ρ c main_v3 (by decide), W2_of_ne m ρ c main_arg5 (by decide),
    show W1 m ρ c (Proc.devRef .tc main_v1) = Ker.kerRow (m ((c : Thread nD τ).loc main_arg1)) from rows_stage (W0 m ρ c),
    show W1 m ρ c (Proc.devRef .tc main_v3) = Ker.kerCol (m ((c : Thread nD τ).loc main_arg1)) from cols_stage (W0 m ρ c),
    show W1 m ρ c (Proc.devRef .tc main_arg5) = m ((c : Thread nD τ).loc main_arg5) from keeps0 (W0 m ρ c) main_arg5 (by decide)]

/-- The pooled embeddings at the predictor region's entry. -/
theorem V5_pooled : V5 m ρ c main_v55
    = Ker.kerPool (Ker.kerRelu (Ker.kerGcn (Host.dotGeneral (F := Ideal) (φ₁ := .f32) (φ₂ := .f32) Cert.ReferenceIdeal.dot_S100000x128_S128x64_S100000x64_1_0_0_1_n_n none
          (m ((c : Thread nD τ).loc main_arg0)) (m ((c : Thread nD τ).loc main_arg4)))
        (Ker.kerRow (m ((c : Thread nD τ).loc main_arg1))) (Ker.kerCol (m ((c : Thread nD τ).loc main_arg1)))
        (m ((c : Thread nD τ).loc main_arg5))))
      (m ((c : Thread nD τ).loc main_arg2)) (m ((c : Thread nD τ).loc main_arg3)) := by
  refine (pool_stage (W4 m ρ c)).trans ?_
  rw [W4_launch m ρ c main_arg2 (by decide) (by decide) (by decide) (by decide),
    W4_launch m ρ c main_arg3 (by decide) (by decide) (by decide) (by decide),
    show W4 m ρ c (Proc.devRef .tc main_v36) = Ker.kerRelu (W3 m ρ c (Proc.devRef .tc main_v35)) from relu_stage (W3 m ρ c),
    W3_gcn m ρ c]

/-- The predictor's weights and vectors at its region's entry. -/
theorem V5_w1 : V5 m ρ c main_arg6 = m ((c : Thread nD τ).loc main_arg6) :=
  W5_launch m ρ c main_arg6 (by decide) (by decide) (by decide) (by decide) (by decide)
theorem V5_w2 : V5 m ρ c main_arg10 = m ((c : Thread nD τ).loc main_arg10) :=
  W5_launch m ρ c main_arg10 (by decide) (by decide) (by decide) (by decide) (by decide)
theorem V5_b1 : V5 m ρ c main_v56 = shapeCast S1x64 (m ((c : Thread nD τ).loc main_arg7)) shapeCasts_S64_S1x64 :=
  (row7_stage (W4 m ρ c)).trans (by rw [W4_launch m ρ c main_arg7 (by decide) (by decide) (by decide) (by decide)])
theorem V5_gamma : V5 m ρ c main_v57 = shapeCast S1x64 (m ((c : Thread nD τ).loc main_arg8)) shapeCasts_S64_S1x64 :=
  (row8_stage (W4 m ρ c)).trans (by rw [W4_launch m ρ c main_arg8 (by decide) (by decide) (by decide) (by decide)])
theorem V5_beta : V5 m ρ c main_v58 = shapeCast S1x64 (m ((c : Thread nD τ).loc main_arg9)) shapeCasts_S64_S1x64 :=
  (row9_stage (W4 m ρ c)).trans (by rw [W4_launch m ρ c main_arg9 (by decide) (by decide) (by decide) (by decide)])
theorem V5_b2 : V5 m ρ c main_v59 = shapeCast S1x1 (m ((c : Thread nD τ).loc main_arg11)) shapeCasts_S1_S1x1 :=
  (row11_stage (W4 m ρ c)).trans (by rw [W4_launch m ρ c main_arg11 (by decide) (by decide) (by decide) (by decide)])

/-- What the kernel program returns, as one term of the launch's arrays. -/
theorem kernel_result : W6 (F := Ideal) m ρ c (Proc.devRef .tc main_v60)
    = Predictor.kerPredictor
        (Ker.kerPool (Ker.kerRelu (Ker.kerGcn (Host.dotGeneral (F := Ideal) (φ₁ := .f32) (φ₂ := .f32) Cert.ReferenceIdeal.dot_S100000x128_S128x64_S100000x64_1_0_0_1_n_n none
              (m ((c : Thread nD τ).loc main_arg0)) (m ((c : Thread nD τ).loc main_arg4)))
            (Ker.kerRow (m ((c : Thread nD τ).loc main_arg1))) (Ker.kerCol (m ((c : Thread nD τ).loc main_arg1)))
            (m ((c : Thread nD τ).loc main_arg5))))
          (m ((c : Thread nD τ).loc main_arg2)) (m ((c : Thread nD τ).loc main_arg3)))
        (m ((c : Thread nD τ).loc main_arg6))
        (shapeCast S1x64 (m ((c : Thread nD τ).loc main_arg7)) shapeCasts_S64_S1x64)
        (shapeCast S1x64 (m ((c : Thread nD τ).loc main_arg8)) shapeCasts_S64_S1x64)
        (shapeCast S1x64 (m ((c : Thread nD τ).loc main_arg9)) shapeCasts_S64_S1x64)
        (m ((c : Thread nD τ).loc main_arg10))
        (shapeCast S1x1 (m ((c : Thread nD τ).loc main_arg11)) shapeCasts_S1_S1x1) :=
  (W6_arr m ρ c 7).trans <| (Predictor.region1_array (V5 m ρ) c).trans <| by
    rw [V5_pooled m ρ c, V5_w1 m ρ c, V5_b1 m ρ c, V5_gamma m ρ c, V5_beta m ρ c, V5_w2 m ρ c, V5_b2 m ρ c]

end Cert.Bridge.KernelValue

end
-- ==== Proof.PredictorRef.lean ====
import proofs.«105521_j74612171866465_2_alg».proof.Proof.Predictor
import proofs.«105521_j74612171866465_2_alg».proof.Proof.RefTerms
import Idealize.ShloMosaic.Lib.ValueIdx
import Idealize.ShloMosaic.Lib.ValueLayout
import Idealize.ShloMosaic.PureOps.Ideal.Laws

/-!
# The predictor: the kernel body's arithmetic equals the reference's

Both programs compute, from the pooled matrix `p` (1024 × 64) and the weights,
`z = max (p · W1 + b1) 0`; per column `j` the mean `mu_j = (Σ_r z_rj) / 1024` and the biased variance
`var_j = (Σ_r (z_rj − mu_j)²) / 1024`; `zn_rj = (z_rj − mu_j) · rsqrt (var_j + eps) · g_j + bt_j`; and the result
`out_r = Σ_j zn_rj · W2_j0 + b2`.

They differ only in layout. The kernel keeps the per-column quantities and the vectors `b1`, `g`, `bt` as
single rows (1 × 64) and `b2` as a 1 × 1 matrix, and repeats a row down the 1024 rows; the reference keeps them
as vectors of 64 entries (one entry for `b2`) and broadcasts in two steps. The kernel's sums start from
nothing, the reference's from an explicit zero. The kernel's narrowing of the matrix operands to a
shorter float format is the identity on extended reals. The two contractions range over the same
index type with the same operand index maps, so no re-indexing of a sum is needed: each stage is
compared entry by entry.
-/

noncomputable section

namespace Cert.Bridge.Predictor

open Idealize.ShloMosaic Idealize.ShloMosaic.TcCoe Idealize.ShloMosaic.ValueIdx

/-! ## The kernel body's arithmetic, cut into its stages -/

section KernelStages
open Cert.KernelIdeal Cert.KernelIdeal.Gen

/-- The hidden layer: the rectified affine map of the pooled matrix. -/
def kZ (x0 : FVec Ideal S1024x64 .f32) (x1 : FVec Ideal S64x64 .f32) (x2 : FVec Ideal S1x64 .f32) : FVec Ideal S1024x64 .f32 :=
  maximumf (addf (matmul dot_S1024x64_S64x64_S1024x64_1_0_0_1_n_n none
      (truncf .bf16 (shapeCast S1024x64 x0 shapeCasts_S1024x64_S1024x64) bitsLt_bf16_f32) (truncf .bf16 x1 bitsLt_bf16_f32)
      (constant S1024x64 .f32 0x00000000#32))
    (broadcastTo S1024x64 (shapeCast S1x64 x2 shapeCasts_S1x64_S1x64) broadcasts_S1x64_S1024x64))
    (broadcast S1024x64 (Scalar.ofBits .f32 0x00000000#32))

/-- The column means of the hidden layer, as a row. -/
def kMu (z : FVec Ideal S1024x64 .f32) : FVec Ideal S1x64 .f32 :=
  divf (shapeCast S1x64 (multiReduction .add [0] S64 z 0x00000000#32 reduces_S1024x64_S64 (.inl rfl) rfl) shapeCasts_S64_S1x64)
    (broadcast S1x64 (Scalar.ofBits .f32 0x44800000#32))

/-- The reciprocal square root of the column variances (about given means) plus epsilon, as a row. -/
def kInvStd (z : FVec Ideal S1024x64 .f32) (mu : FVec Ideal S1x64 .f32) : FVec Ideal S1x64 .f32 :=
  rsqrt (addf
    (divf (shapeCast S1x64 (multiReduction .add [0] S64
        (mulf (subf z (broadcastTo S1024x64 mu broadcasts_S1x64_S1024x64)) (subf z (broadcastTo S1024x64 mu broadcasts_S1x64_S1024x64)))
        0x00000000#32 reduces_S1024x64_S64 (.inl rfl) rfl) shapeCasts_S64_S1x64)
      (broadcast S1x64 (Scalar.ofBits .f32 0x44800000#32)))
    (broadcast S1x64 (Scalar.ofBits .f32 0x3727C5AC#32)))

/-- The normalised, scaled and shifted hidden layer. -/
def kNorm (z : FVec Ideal S1024x64 .f32) (mu x3 x4 : FVec Ideal S1x64 .f32) : FVec Ideal S1024x64 .f32 :=
  addf (mulf (mulf (subf z (broadcastTo S1024x64 mu broadcasts_S1x64_S1024x64))
        (broadcastTo S1024x64 (kInvStd z mu) broadcasts_S1x64_S1024x64))
      (broadcastTo S1024x64 (shapeCast S1x64 x3 shapeCasts_S1x64_S1x64) broadcasts_S1x64_S1024x64))
    (broadcastTo S1024x64 (shapeCast S1x64 x4 shapeCasts_S1x64_S1x64) broadcasts_S1x64_S1024x64)

/-- The output layer. -/
def kOut (zn : FVec Ideal S1024x64 .bf16) (x5 : FVec Ideal S64x1 .f32) (x6 : FVec Ideal S1x1 .f32) : FVec Ideal S1024x1 .f32 :=
  addf (matmul dot_S1024x64_S64x1_S1024x1_1_0_0_1_n_n none zn (truncf .bf16 x5 bitsLt_bf16_f32) (constant S1024x1 .f32 0x00000000#32))
    (broadcastTo S1024x1 (shapeCast S1x1 x6 shapeCasts_S1x1_S1x1) broadcasts_S1x1_S1024x1)

/-- The body's first payload is the normalised hidden layer of its own hidden layer and means. -/
theorem pay2_stages (x0 : FVec Ideal S1024x64 .f32) (x1 : FVec Ideal S64x64 .f32) (x2 x3 x4 : FVec Ideal S1x64 .f32) :
    k1_pay2 x0 x1 x2 x3 x4 = truncf .bf16 (kNorm (kZ x0 x1 x2) (kMu (kZ x0 x1 x2)) x3 x4) bitsLt_bf16_f32 := rfl

/-- The body's second payload is the output layer. -/
theorem pay1_stages (zn : FVec Ideal S1024x64 .bf16) (x5 : FVec Ideal S64x1 .f32) (x6 : FVec Ideal S1x1 .f32) :
    k1_pay1 zn x5 x6 = kOut zn x5 x6 := rfl

end KernelStages

/-! ## The reference's output stage, cut the same way -/

section ReferenceStages
open Cert.ReferenceIdeal Cert.ReferenceIdeal.Gen

/-- The reciprocal square root of the column variances (about given means) plus epsilon. -/
def rInvStd (z : FVec Ideal S1024x64 .f32) (mu : FVec Ideal S64 .f32) : FVec Ideal S64 .f32 :=
  Host.rsqrt (addf (Host.divf (Host.reduceAdd (mulf (subf z (broadcastInDim S1024x64 ![0, 1] bcast_S1x64_S1024x64_0_1 (broadcastInDim S1x64 ![1] bcast_S64_S1x64_1 mu))) (subf z (broadcastInDim S1024x64 ![0, 1] bcast_S1x64_S1024x64_0_1 (broadcastInDim S1x64 ![1] bcast_S64_S1x64_1 mu)))) (constant (F := Ideal) S_ .f32 0x00000000#32) reducesTo_S1024x64_S64_d0 h_S_) (broadcastInDim S64 ![] bcast_S_S64 (constant (F := Ideal) S_ .f32 0x44800000#32))) (broadcastInDim S64 ![] bcast_S_S64 (constant (F := Ideal) S_ .f32 0x3727C5AC#32)))

/-- The normalised, scaled and shifted hidden layer. -/
def rNorm (z : FVec Ideal S1024x64 .f32) (mu a8 a9 : FVec Ideal S64 .f32) : FVec Ideal S1024x64 .f32 :=
  addf (mulf (mulf (subf z (broadcastInDim S1024x64 ![0, 1] bcast_S1x64_S1024x64_0_1 (broadcastInDim S1x64 ![1] bcast_S64_S1x64_1 mu))) (broadcastInDim S1024x64 ![0, 1] bcast_S1x64_S1024x64_0_1 (broadcastInDim S1x64 ![1] bcast_S64_S1x64_1 (rInvStd z mu)))) (broadcastInDim S1024x64 ![0, 1] bcast_S1x64_S1024x64_0_1 (broadcastInDim S1x64 ![1] bcast_S64_S1x64_1 a8))) (broadcastInDim S1024x64 ![0, 1] bcast_S1x64_S1024x64_0_1 (broadcastInDim S1x64 ![1] bcast_S64_S1x64_1 a9))

/-- The reference's output stage is its output layer applied to the normalised hidden layer. -/
theorem refHead_stages (z : FVec Ideal S1024x64 .f32) (mu a8 a9 : FVec Ideal S64 .f32) (a10 : FVec Ideal S64x1 .f32) (a11 : FVec Ideal S1 .f32) :
    Cert.Bridge.Ref.refHead z mu a8 a9 a10 a11
      = addf (Host.dotGeneral dot_S1024x64_S64x1_S1024x1_1_0_0_1_n_n none (rNorm z mu a8 a9) a10)
          (broadcastInDim S1024x1 ![0, 1] bcast_S1x1_S1024x1_0_1 (broadcastInDim S1x1 ![1] bcast_S1_S1x1_1 a11)) := rfl

end ReferenceStages

/-! ## The two programs contract over the same index type -/

theorem dims_hidden : Cert.KernelIdeal.dot_S1024x64_S64x64_S1024x64_1_0_0_1_n_n = Cert.ReferenceIdeal.dot_S1024x64_S64x64_S1024x64_1_0_0_1_n_n := rfl
theorem dims_out : Cert.KernelIdeal.dot_S1024x64_S64x1_S1024x1_1_0_0_1_n_n = Cert.ReferenceIdeal.dot_S1024x64_S64x1_S1024x1_1_0_0_1_n_n := rfl

/-! ## Row vectors read at an index -/

/-- A vector of 64 entries laid out as one row reads its entry in every row of the 1024. -/
theorem row_k (v : FVec Ideal Cert.KernelIdeal.S1x64 .f32) (r : Fin 1024) (j : Fin 64) :
    broadcastTo Cert.KernelIdeal.S1024x64 v Cert.KernelIdeal.Gen.broadcasts_S1x64_S1024x64 (ix2 r j) = v (ix2 (0 : Fin 1) j) :=
  broadcastTo_1b_ab_apply v _ r j

/-- The host's two-step broadcast of a vector of 64 entries reads the same entry. -/
theorem row_r (v : FVec Ideal Cert.ReferenceIdeal.S64 .f32) (r : Fin 1024) (j : Fin 64) :
    broadcastInDim Cert.ReferenceIdeal.S1024x64 ![0, 1] Cert.ReferenceIdeal.Gen.bcast_S1x64_S1024x64_0_1
      (broadcastInDim Cert.ReferenceIdeal.S1x64 ![1] Cert.ReferenceIdeal.Gen.bcast_S64_S1x64_1 v) (ix2 r j) = v (ix1 j) := by
  refine (broadcastInDim_apply _ Cert.ReferenceIdeal.Gen.bcast_S1x64_S1024x64_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (64 : Nat) = 1 then 0 else j.val; rw [if_neg (by decide)]
  · exact broadcastInDim_apply _ Cert.ReferenceIdeal.Gen.bcast_S64_S1x64_1 v (ix2 (0 : Fin 1) j) (ix1 j) (fun a => by
      match a with
      | ⟨0, _⟩ => show j.val = if (64 : Nat) = 1 then 0 else j.val; rw [if_neg (by decide)])

/-- A vector of 64 entries recast as one row reads its entry. -/
theorem cast_row (v : FVec Ideal Cert.ReferenceIdeal.S64 .f32) (u : Fin 1) (j : Fin 64) :
    shapeCast Cert.KernelIdeal.S1x64 v Cert.KernelIdeal.Gen.shapeCasts_S64_S1x64 (ix2 u j) = v (ix1 j) :=
  shapeCast_a_1a_apply v _ u j

/-! ## The hidden layer -/

theorem kZ_eq (p : FVec Ideal Cert.ReferenceIdeal.S1024x64 .f32) (a6 : FVec Ideal Cert.ReferenceIdeal.S64x64 .f32)
    (a7 : FVec Ideal Cert.ReferenceIdeal.S64 .f32) :
    kZ p a6 (shapeCast Cert.KernelIdeal.S1x64 a7 Cert.KernelIdeal.Gen.shapeCasts_S64_S1x64) = Cert.Bridge.Ref.refZ p a6 a7 := by
  funext i
  obtain ⟨r, j, rfl⟩ : ∃ (r : Fin 1024) (j : Fin 64), i = ix2 r j := ⟨i 0, i 1, eq_ix2 i⟩
  unfold kZ Cert.Bridge.Ref.refZ
  rw [shapeCast_self, shapeCast_self]
  simp only [maximumf_apply, addf_apply]
  rw [row_k, row_r, cast_row]
  simp only [matmul, Host.dotGeneral]
  rw [Ideal.matmul_constant_zero_apply, Ideal.dotGeneral_apply, dims_hidden]
  rfl

/-! ## Column sums -/

/-- The kernel's sum down the rows, recast as a row, is the sum of the column's 1024 entries. -/
theorem colsum_k (y : FVec Ideal Cert.KernelIdeal.S1024x64 .f32) (u : Fin 1) (j : Fin 64) :
    shapeCast Cert.KernelIdeal.S1x64
        (multiReduction .add [0] Cert.KernelIdeal.S64 y 0x00000000#32 Cert.KernelIdeal.Gen.reduces_S1024x64_S64 (.inl rfl) rfl)
        Cert.KernelIdeal.Gen.shapeCasts_S64_S1x64 (ix2 u j)
      = ∑ k : Fin 1024, y (ix2 k j) := by
  refine (shapeCast_a_1a_apply _ _ u j).trans ?_
  refine (Ideal.multiReduction_add_single y 0x00000000#32 Cert.KernelIdeal.Gen.reduces_S1024x64_S64 (.inl rfl) rfl (ix1 j)).trans ?_
  refine Finset.sum_congr rfl fun k _ => ?_
  exact congrArg y (funext fun a => Fin.ext (by match a with | ⟨0, _⟩ => rfl | ⟨1, _⟩ => rfl))

/-- The host's sum down the rows from an explicit zero is the same sum. -/
theorem colsum_r (y : FVec Ideal Cert.ReferenceIdeal.S1024x64 .f32) (j : Fin 64) :
    Host.reduceAdd y (constant (F := Ideal) Cert.ReferenceIdeal.S_ .f32 0x00000000#32)
        Cert.ReferenceIdeal.Gen.reducesTo_S1024x64_S64_d0 Cert.ReferenceIdeal.Gen.h_S_ (ix1 j)
      = ∑ k : Fin 1024, y (ix2 k j) := by
  simp only [Host.reduceAdd, Ideal.hostReduceAdd_def]
  rw [Ideal.hostReduceAdd_single Cert.ReferenceIdeal.Gen.reducesTo_S1024x64_S64_d0 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The host's scalar constant broadcast to 64 entries reads the constant. -/
theorem scalar_r (c : BitVec 32) (j : Cert.ReferenceIdeal.S64.Idx) :
    broadcastInDim Cert.ReferenceIdeal.S64 ![] Cert.ReferenceIdeal.Gen.bcast_S_S64 (constant (F := Ideal) Cert.ReferenceIdeal.S_ .f32 c) j
      = Ideal.ofBits .f32 c := rfl

/-! ## The column means -/

theorem kMu_eq (z : FVec Ideal Cert.ReferenceIdeal.S1024x64 .f32) (u : Fin 1) (j : Fin 64) :
    kMu z (ix2 u j) = Cert.Bridge.Ref.refMu z (ix1 j) := by
  unfold kMu Cert.Bridge.Ref.refMu
  show Ideal.div _ _ = Ideal.div _ _
  rw [colsum_k, colsum_r]
  rfl

/-! ## Centring, and the reciprocal standard deviation -/

/-- Subtracting the means: the kernel's row of means and the reference's vector of means give the same matrix. -/
theorem center_eq (z : FVec Ideal Cert.ReferenceIdeal.S1024x64 .f32) (muK : FVec Ideal Cert.KernelIdeal.S1x64 .f32)
    (muR : FVec Ideal Cert.ReferenceIdeal.S64 .f32) (hmu : ∀ j : Fin 64, muK (ix2 (0 : Fin 1) j) = muR (ix1 j)) :
    subf z (broadcastTo Cert.KernelIdeal.S1024x64 muK Cert.KernelIdeal.Gen.broadcasts_S1x64_S1024x64)
      = subf z (broadcastInDim Cert.ReferenceIdeal.S1024x64 ![0, 1] Cert.ReferenceIdeal.Gen.bcast_S1x64_S1024x64_0_1
          (broadcastInDim Cert.ReferenceIdeal.S1x64 ![1] Cert.ReferenceIdeal.Gen.bcast_S64_S1x64_1 muR)) := by
  funext i
  obtain ⟨r, j, rfl⟩ : ∃ (r : Fin 1024) (j : Fin 64), i = ix2 r j := ⟨i 0, i 1, eq_ix2 i⟩
  simp only [subf_apply]
  rw [row_k, row_r, hmu]

theorem invStd_eq (z : FVec Ideal Cert.ReferenceIdeal.S1024x64 .f32) (muK : FVec Ideal Cert.KernelIdeal.S1x64 .f32)
    (muR : FVec Ideal Cert.ReferenceIdeal.S64 .f32) (hmu : ∀ j : Fin 64, muK (ix2 (0 : Fin 1) j) = muR (ix1 j)) (u : Fin 1) (j : Fin 64) :
    kInvStd z muK (ix2 u j) = rInvStd z muR (ix1 j) := by
  unfold kInvStd rInvStd
  rw [center_eq z muK muR hmu]
  show Ideal.rsqrt (Ideal.div _ _ + _) = Ideal.rsqrt (Ideal.div _ _ + _)
  rw [colsum_k, colsum_r]
  rfl

/-! ## The normalised hidden layer -/

theorem norm_eq (z : FVec Ideal Cert.ReferenceIdeal.S1024x64 .f32) (muK : FVec Ideal Cert.KernelIdeal.S1x64 .f32)
    (muR a8 a9 : FVec Ideal Cert.ReferenceIdeal.S64 .f32) (hmu : ∀ j : Fin 64, muK (ix2 (0 : Fin 1) j) = muR (ix1 j)) :
    kNorm z muK (shapeCast Cert.KernelIdeal.S1x64 a8 Cert.KernelIdeal.Gen.shapeCasts_S64_S1x64)
        (shapeCast Cert.KernelIdeal.S1x64 a9 Cert.KernelIdeal.Gen.shapeCasts_S64_S1x64)
      = rNorm z muR a8 a9 := by
  funext i
  obtain ⟨r, j, rfl⟩ : ∃ (r : Fin 1024) (j : Fin 64), i = ix2 r j := ⟨i 0, i 1, eq_ix2 i⟩
  unfold kNorm rNorm
  rw [center_eq z muK muR hmu, shapeCast_self, shapeCast_self]
  simp only [addf_apply, mulf_apply]
  rw [row_k, row_k, row_k, row_r, row_r, row_r, cast_row, cast_row, invStd_eq z muK muR hmu]

/-! ## The output layer -/

/-- A 1 × 1 matrix repeated down the 1024 rows reads its one entry. -/
theorem one_k (v : FVec Ideal Cert.KernelIdeal.S1x1 .f32) (r : Fin 1024) (o : Fin 1) :
    broadcastTo Cert.KernelIdeal.S1024x1 v Cert.KernelIdeal.Gen.broadcasts_S1x1_S1024x1 (ix2 r o) = v (ix2 (0 : Fin 1) o) :=
  broadcastTo_1b_ab_apply v _ r o

/-- The host's two-step broadcast of a vector of one entry reads that entry. -/
theorem one_r (v : FVec Ideal Cert.ReferenceIdeal.S1 .f32) (r : Fin 1024) (o : Fin 1) :
    broadcastInDim Cert.ReferenceIdeal.S1024x1 ![0, 1] Cert.ReferenceIdeal.Gen.bcast_S1x1_S1024x1_0_1
      (broadcastInDim Cert.ReferenceIdeal.S1x1 ![1] Cert.ReferenceIdeal.Gen.bcast_S1_S1x1_1 v) (ix2 r o) = v (ix1 (0 : Fin 1)) := by
  refine (broadcastInDim_apply _ Cert.ReferenceIdeal.Gen.bcast_S1x1_S1024x1_0_1 _ (ix2 r o) (ix2 (0 : Fin 1) (0 : Fin 1)) (fun a => ?_)).trans ?_
  · match a with
    | ⟨0, _⟩ => show 0 = if (1 : Nat) = 1 then 0 else r.val; rw [if_pos rfl]
    | ⟨1, _⟩ => show 0 = if (1 : Nat) = 1 then 0 else o.val; rw [if_pos rfl]
  · exact broadcastInDim_apply _ Cert.ReferenceIdeal.Gen.bcast_S1_S1x1_1 v (ix2 (0 : Fin 1) (0 : Fin 1)) (ix1 (0 : Fin 1)) (fun a => by
      match a with
      | ⟨0, _⟩ => show 0 = if (1 : Nat) = 1 then 0 else (0 : Fin 1).val; rw [if_pos rfl])

/-- A vector of one entry recast as a 1 × 1 matrix reads its entry. -/
theorem cast_one (v : FVec Ideal Cert.ReferenceIdeal.S1 .f32) (u o : Fin 1) :
    shapeCast Cert.KernelIdeal.S1x1 v Cert.KernelIdeal.Gen.shapeCasts_S1_S1x1 (ix2 u o) = v (ix1 o) :=
  shapeCast_a_1a_apply v _ u o

theorem out_layer_eq (zn : FVec Ideal Cert.ReferenceIdeal.S1024x64 .f32) (a10 : FVec Ideal Cert.ReferenceIdeal.S64x1 .f32)
    (a11 : FVec Ideal Cert.ReferenceIdeal.S1 .f32) :
    kOut (truncf .bf16 zn Cert.KernelIdeal.Gen.bitsLt_bf16_f32) a10
        (shapeCast Cert.KernelIdeal.S1x1 a11 Cert.KernelIdeal.Gen.shapeCasts_S1_S1x1)
      = addf (Host.dotGeneral Cert.ReferenceIdeal.dot_S1024x64_S64x1_S1024x1_1_0_0_1_n_n none zn a10)
          (broadcastInDim Cert.ReferenceIdeal.S1024x1 ![0, 1] Cert.ReferenceIdeal.Gen.bcast_S1x1_S1024x1_0_1
            (broadcastInDim Cert.ReferenceIdeal.S1x1 ![1] Cert.ReferenceIdeal.Gen.bcast_S1_S1x1_1 a11)) := by
  funext i
  obtain ⟨r, o, rfl⟩ : ∃ (r : Fin 1024) (o : Fin 1), i = ix2 r o := ⟨i 0, i 1, eq_ix2 i⟩
  obtain rfl : o = 0 := Subsingleton.elim _ _
  unfold kOut
  rw [shapeCast_self]
  simp only [addf_apply]
  rw [one_k, one_r, cast_one]
  simp only [matmul, Host.dotGeneral]
  rw [Ideal.matmul_constant_zero_apply, Ideal.dotGeneral_apply, dims_out]
  rfl

/-! ## The predictor -/

/-- The reference's predictor on the pooled matrix is the kernel body's arithmetic on the same matrix
    and weights, the vectors recast as the rows (and the 1 × 1 matrix) the kernel stages. -/
theorem refPredictor_eq (p : FVec Ideal Cert.ReferenceIdeal.S1024x64 .f32) (a6 : FVec Ideal Cert.ReferenceIdeal.S64x64 .f32)
    (a7 a8 a9 : FVec Ideal Cert.ReferenceIdeal.S64 .f32) (a10 : FVec Ideal Cert.ReferenceIdeal.S64x1 .f32)
    (a11 : FVec Ideal Cert.ReferenceIdeal.S1 .f32) :
    Cert.Bridge.Ref.refPredictor p a6 a7 a8 a9 a10 a11
      = kerPredictor p a6
          (shapeCast Cert.KernelIdeal.S1x64 a7 Cert.KernelIdeal.Gen.shapeCasts_S64_S1x64)
          (shapeCast Cert.KernelIdeal.S1x64 a8 Cert.KernelIdeal.Gen.shapeCasts_S64_S1x64)
          (shapeCast Cert.KernelIdeal.S1x64 a9 Cert.KernelIdeal.Gen.shapeCasts_S64_S1x64)
          a10
          (shapeCast Cert.KernelIdeal.S1x1 a11 Cert.KernelIdeal.Gen.shapeCasts_S1_S1x1) := by
  unfold Cert.Bridge.Ref.refPredictor kerPredictor
  rw [pay2_stages, pay1_stages, kZ_eq, out_layer_eq,
    norm_eq _ _ (Cert.Bridge.Ref.refMu (Cert.Bridge.Ref.refZ p a6 a7)) a8 a9 (fun j => kMu_eq _ 0 j), refHead_stages]

end Cert.Bridge.Predictor

end
-- ==== Proof.Claims.lean ====
/-
  The claims: both idealized programs, from memories agreeing on the arguments, end with equal results.

  The kernel program's result is the predictor region's arithmetic on the pooled, rectified graph convolution of the
  projection x·W; the reference's result is its own predictor on its own pooled, rectified convolution of the same
  projection.  The rows of the edge list, the rectifier, the mean pool and the projection are spelt identically by the
  two programs; the two predictors agree on every pooled matrix; the two arrangements of the graph convolution agree by
  the convolution law, taken here as a hypothesis.  So the two results are one term of the arguments.
-/
import proofs.«105521_j74612171866465_2_alg».proof.Defs
import proofs.«105521_j74612171866465_2_alg».proof.Proof.Gen.Kernel
import proofs.«105521_j74612171866465_2_alg».proof.Proof.Gen.Kernel.Frame
import proofs.«105521_j74612171866465_2_alg».proof.Proof.Gen.KernelIdeal
import proofs.«105521_j74612171866465_2_alg».proof.Proof.Gen.KernelIdeal.Frame
import proofs.«105521_j74612171866465_2_alg».proof.Proof.Gen.ReferenceIdeal
import proofs.«105521_j74612171866465_2_alg».proof.Proof.Gen.Pre_finite_inputs
import proofs.«105521_j74612171866465_2_alg».proof.Proof.KernelRun
import proofs.«105521_j74612171866465_2_alg».proof.Proof.ReferenceRunPatched
import proofs.«105521_j74612171866465_2_alg».proof.Proof.RefValue
import proofs.«105521_j74612171866465_2_alg».proof.Proof.RefTerms
import proofs.«105521_j74612171866465_2_alg».proof.Proof.KernelTerms
import proofs.«105521_j74612171866465_2_alg».proof.Proof.KernelValue
import proofs.«105521_j74612171866465_2_alg».proof.Proof.PredictorRef

set_option maxRecDepth 16384

noncomputable section

namespace Cert.Bridge.Claims

open Idealize.ShloMosaic Idealize.ShloMosaic.TcCoe Idealize.SL.Sem
open Cert.Bridge

/-! ## The stages the two programs spell identically -/

theorem row_eq (a1 : IVec Cert.KernelIdeal.S2x3200000 32) : Ker.kerRow a1 = Ref.refRow a1 := rfl
theorem col_eq (a1 : IVec Cert.KernelIdeal.S2x3200000 32) : Ker.kerCol a1 = Ref.refCol a1 := rfl
theorem relu_eq (h : FVec Ideal Cert.KernelIdeal.S100000x64 .f32) : Ker.kerRelu h = Ref.refRelu h := rfl
theorem pool_eq (h : FVec Ideal Cert.KernelIdeal.S100000x64 .f32) (a2 a3 : IVec Cert.KernelIdeal.S500000 32) :
    Ker.kerPool h a2 a3 = Ref.refPool h a2 a3 := rfl
theorem xw_eq (x : FVec Ideal Cert.KernelIdeal.S100000x128 .f32) (w : FVec Ideal Cert.KernelIdeal.S128x64 .f32) :
    Host.dotGeneral (F := Ideal) (φ₁ := .f32) (φ₂ := .f32) Cert.ReferenceIdeal.dot_S100000x128_S128x64_S100000x64_1_0_0_1_n_n none x w
      = Ref.refXW x w := rfl

/-! ## The claims -/

/-- From memories agreeing on the arguments the two idealized programs end with equal results, given the convolution
    law between the two arrangements of the graph convolution. -/
theorem algebraic
    (hgcn : ∀ (xw : FVec Ideal Cert.KernelIdeal.S100000x64 .f32) (row col : IVec Cert.KernelIdeal.S3200000 32)
      (a5 : FVec Ideal Cert.KernelIdeal.S64 .f32), Ker.kerGcn xw row col a5 = Ref.refGcn xw row col a5) :
    Cert.algebraic_KernelIdeal_ReferenceIdeal := by
  intro m ρ m' ρ' _ hagree
  refine ⟨fun c => Cert.KernelIdeal.Gen.W6 (F := Ideal) m ρ c (Proc.devRef .tc Cert.KernelIdeal.main_v60),
    Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11⟩ := hagree c
  show Cert.ReferenceIdeal.ValueP.res_main_v100 (F := Ideal) m' c
    = Cert.KernelIdeal.Gen.W6 (F := Ideal) m ρ c (Proc.devRef .tc Cert.KernelIdeal.main_v60)
  rw [RefValue.res_eq m' c, e0, e1, e2, e3, e4, e5, e6, e7, e8, e9, e10, e11, KernelValue.kernel_result m ρ c,
    Predictor.refPredictor_eq, ← pool_eq, ← relu_eq, ← hgcn, ← row_eq, ← col_eq, ← xw_eq]

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Everything claimed, given the convolution law. -/
theorem claim_of
    (hgcn : ∀ (xw : FVec Ideal Cert.KernelIdeal.S100000x64 .f32) (row col : IVec Cert.KernelIdeal.S3200000 32)
      (a5 : FVec Ideal Cert.KernelIdeal.S64 .f32), Ker.kerGcn xw row col a5 = Ref.refGcn xw row col a5) :
    Cert.Claim :=
  ⟨Cert.Kernel.Gen.facts, Cert.KernelIdeal.Gen.facts, Cert.ReferenceIdeal.Gen.facts, Cert.Pre_finite_inputs.Gen.facts,
    frame_k, frame_ki, frame_ri, preserves, algebraic hgcn⟩

end Cert.Bridge.Claims

end
-- ==== Proof.LibRowGatherScatter.lean ====
/-
  `x[idx]` along axis 0 and its transpose, the accumulating scatter along axis 0, read at an index.

  A gather of whole rows: operand `[N, W]` (or a flat `[N]`), start indices `[E, 1]`, result `[E, W]` (or `[E]`).
  Result row `e` is operand row `idx[e, 0]`, read as a signed integer and clamped into `[0, N - 1]`.
  A scatter-add of whole rows: operand `[N, W]` (or `[N]`), scatter indices `[E, 1]`, updates `[E, W]` (or `[E]`).
  Operand row `i` receives the sum of the update rows `e` with `idx[e, 0] = i` as a signed integer; an update whose index
  is negative or at least `N` lands nowhere.
  Last, the index word after the usual wrap of negative indices (`w < 0 ? w + N : w`): where the raw word already names a
  row `i < N`, the wrapped word clamps to the same `i` — so a gather through wrapped indices and a scatter through raw
  ones speak of the same row whenever the scatter keeps the update.
-/
import Idealize.ShloMosaic.PureOps.Ideal
import Idealize.ShloMosaic.Lib.ValueIdx

noncomputable section

namespace Idealize.ShloMosaic.RowIndex

open Idealize.ShloMosaic Idealize.ShloMosaic.ValueIdx

variable {α : Type}

/-! ## Dimension numbers -/

/-- Gather of rows of `[N, W]` at `[E, 1]` start indices. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Gather of entries of a flat `[N]` at `[E, 1]` start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of rows `[E, W]` into `[N, W]` at `[E, 1]` scatter indices. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- Scatter of entries `[E]` into a flat `[N]` at `[E, 1]` scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row a start-index word names after clamping into `[0, N - 1]`. -/
def clampRow (N : Nat) (hN : 0 < N) {w : Nat} (b : BitVec w) : Fin N := ⟨min b.toInt.toNat (N - 1), by omega⟩

/-! ## The gathers read at an index -/

/-- The row gather read at `(e, k)`: the operand at row `idx[e, 0]` (read signed, clamped into `[0, N - 1]`), column `k`. -/
theorem rowGather_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N E W wf) x idx (ix2 e k) = x (ix2 (clampRow N hN (idx (ix2 e 0))) k) := by
  unfold Host.gather
  congr 1
  funext a
  match a with
  | ⟨0, _⟩ =>
    refine Fin.ext ?_
    show (rowGatherDims N E W wf).start (ix2 e k) idx 0 + (rowGatherDims N E W wf).batchCoord (ix2 e k) 0
      + (rowGatherDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e k) ⟨List.idxOf (0 : Fin 2) (rowGatherDims N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    refine Fin.ext ?_
    show (rowGatherDims N E W wf).start (ix2 e k) idx 1 + (rowGatherDims N E W wf).batchCoord (ix2 e k) 1
      + (rowGatherDims N E W wf).offCoord (ix2 e k) 1 = _
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨show (1 : Fin 2) ∉ ([0] : List (Fin 2)) by decide, List.not_mem_nil⟩)]
    simp only [Nat.zero_add, Nat.add_zero]
    rfl

/-- The flat gather read at `e`: the operand at entry `idx[e, 0]` (read signed, clamped into `[0, N - 1]`). -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulating scatters read at an index -/

/-- Where an update row lands: on axis 0 the window starts at the signed index word `idx[j 0, 0]`. -/
theorem rowScatter_start0 {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) :
    (rowScatterDims N E W wf).start j idx 0 = (idx (ix2 (j 0) 0)).toInt := by
  unfold ScatterDims.start
  rw [dif_pos (show (0 : Fin 2) ∈ (rowScatterDims N E W wf).scatterDimsToOperandDims from List.mem_singleton.mpr rfl)]
  have hsi : (rowScatterDims N E W wf).siIdx j ⟨List.idxOf (0 : Fin 2) (rowScatterDims N E W wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On axis 1 no index word is read: the window starts at `0`. -/
theorem rowScatter_start1 {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) :
    (rowScatterDims N E W wf).start j idx 1 = 0 := by
  unfold ScatterDims.start
  rw [dif_neg (show (1 : Fin 2) ∉ ([0] : List (Fin 2)) by decide)]

/-- Axis 0 is an inserted window axis: the window coordinate there is `0`. -/
theorem rowScatter_window0 {N E W : Nat}
    (wf : ScatterDims.WF ⟨2, ![N, W]⟩ ⟨2, ![E, 1]⟩ ⟨2, ![E, W]⟩ [1] [0] [0] 1)
    (j : (⟨2, ![E, W]⟩ : Shape).Idx) :
    (rowScatterDims N E W wf).window j 0 = 0 := by
  unfold ScatterDims.window
  have h0 : (0 : Fin 2) ∉ (rowScatterDims N E W wf).sKept := by
    simp [Shape.kept, List.mem_filter]
  rw [dif_neg h0]

/-- Axis 1 is the window axis: the window coordinate there is the update's column. -/
theorem rowScatter_window1 {N E W : Nat}
    (wf : ScatterDims.WF ⟨2, ![N, W]⟩ ⟨2, ![E, 1]⟩ ⟨2, ![E, W]⟩ [1] [0] [0] 1)
    (j : (⟨2, ![E, W]⟩ : Shape).Idx) :
    (rowScatterDims N E W wf).window j 1 = (j 1).val := by
  unfold ScatterDims.window
  have h1 : (1 : Fin 2) ∈ (rowScatterDims N E W wf).sKept := by
    simp [Shape.kept, List.mem_filter, List.mem_finRange]
  rw [dif_pos h1]
  rfl

/-- An update `(e, c)` lands on `(i, k)` exactly when its index word is `i` as a signed integer and `c = k`. -/
theorem rowScatter_resultIdx_iff {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) (i : Fin N) (k : Fin W) :
    (rowScatterDims N E W wf).resultIdx? j idx = some (ix2 i k)
      ↔ (idx (ix2 (j 0) 0)).toInt = (i.val : ℤ) ∧ j 1 = k := by
  have hs0 := rowScatter_start0 wf idx j
  have hs1 := rowScatter_start1 wf idx j
  have hw0 := rowScatter_window0 wf j
  have hw1 := rowScatter_window1 wf j
  unfold ScatterDims.resultIdx?
  split
  · rename_i hall
    rw [Option.some.injEq]
    constructor
    · intro heq
      have h0 := congrArg Fin.val (congrFun heq 0)
      have h1 := congrArg Fin.val (congrFun heq 1)
      have ha0 := (hall 0).1
      change ((rowScatterDims N E W wf).start j idx 0 + ((rowScatterDims N E W wf).window j 0 : ℤ)).toNat = i.val at h0
      change ((rowScatterDims N E W wf).start j idx 1 + ((rowScatterDims N E W wf).window j 1 : ℤ)).toNat = k.val at h1
      rw [hs0, hw0] at h0 ha0
      rw [hs1, hw1] at h1
      refine ⟨by omega, Fin.ext (by omega)⟩
    · rintro ⟨h0, h1⟩
      funext a
      refine Fin.ext ?_
      match a with
      | ⟨0, _⟩ =>
        show ((rowScatterDims N E W wf).start j idx 0 + ((rowScatterDims N E W wf).window j 0 : ℤ)).toNat = i.val
        rw [hs0, hw0, h0]; omega
      | ⟨1, _⟩ =>
        show ((rowScatterDims N E W wf).start j idx 1 + ((rowScatterDims N E W wf).window j 1 : ℤ)).toNat = k.val
        rw [hs1, hw1, h1]; omega
  · rename_i hnot
    constructor
    · intro heq; cases heq
    · rintro ⟨h0, h1⟩
      exfalso
      apply hnot
      intro a
      match a with
      | ⟨0, _⟩ =>
        show 0 ≤ (rowScatterDims N E W wf).start j idx 0 + ((rowScatterDims N E W wf).window j 0 : ℤ)
          ∧ (rowScatterDims N E W wf).start j idx 0 + ((rowScatterDims N E W wf).window j 0 : ℤ) < (N : ℤ)
        rw [hs0, hw0, h0]
        have := i.isLt
        omega
      | ⟨1, _⟩ =>
        show 0 ≤ (rowScatterDims N E W wf).start j idx 1 + ((rowScatterDims N E W wf).window j 1 : ℤ)
          ∧ (rowScatterDims N E W wf).start j idx 1 + ((rowScatterDims N E W wf).window j 1 : ℤ) < (W : ℤ)
        rw [hs1, hw1, h1]
        have := k.isLt
        omega

/-- The row scatter-add read at `(i, k)`: the operand's entry plus the sum of the updates `(e, k)` over the update rows
    `e` whose index word `idx[e, 0]` is `i` as a signed integer. -/
theorem rowScatterAdd_apply {N E W w : Nat}
    (wf : ScatterDims.WF ⟨2, ![N, W]⟩ ⟨2, ![E, 1]⟩ ⟨2, ![E, W]⟩ [1] [0] [0] 1)
    (x0 : (⟨2, ![N, W]⟩ : Shape).Idx → EReal) (idx : IVec ⟨2, ![E, 1]⟩ w) (upd : (⟨2, ![E, W]⟩ : Shape).Idx → EReal)
    (i : Fin N) (k : Fin W) :
    Ideal.hostScatterAdd (rowScatterDims N E W wf) x0 idx upd (ix2 i k)
      = x0 (ix2 i k) + ∑ e ∈ Finset.univ.filter (fun e : Fin E => (idx (ix2 e 0)).toInt = (i.val : ℤ)), upd (ix2 e k) := by
  unfold Ideal.hostScatterAdd
  congr 1
  have hback : ∀ j : (⟨2, ![E, W]⟩ : Shape).Idx,
      (rowScatterDims N E W wf).resultIdx? j idx = some (ix2 i k) → ix2 (j 0 : Fin E) k = j := by
    intro j hj
    have hk := ((rowScatter_resultIdx_iff wf idx j i k).mp hj).2
    rw [← hk]; exact (eq_ix2 j).symm
  refine Finset.sum_nbij' (fun j => (j 0 : Fin E)) (fun e => ix2 e k) ?_ ?_ ?_ ?_ ?_
  · intro j hj
    exact Finset.mem_filter.mpr ⟨Finset.mem_univ _,
      ((rowScatter_resultIdx_iff wf idx j i k).mp (Finset.mem_filter.mp hj).2).1⟩
  · intro e he
    exact Finset.mem_filter.mpr ⟨Finset.mem_univ _,
      (rowScatter_resultIdx_iff wf idx (ix2 e k) i k).mpr ⟨(Finset.mem_filter.mp he).2, rfl⟩⟩
  · intro j hj
    exact hback j (Finset.mem_filter.mp hj).2
  · intro e _
    rfl
  · intro j hj
    exact congrArg upd (hback j (Finset.mem_filter.mp hj).2).symm

/-- A flat update lands at the signed index word `idx[j 0, 0]`. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is an inserted window axis: the window coordinate there is `0`. -/
theorem vecScatter_window0 {N E : Nat}
    (wf : ScatterDims.WF ⟨1, ![N]⟩ ⟨2, ![E, 1]⟩ ⟨1, ![E]⟩ [] [0] [0] 1)
    (j : (⟨1, ![E]⟩ : Shape).Idx) :
    (vecScatterDims N E wf).window j 0 = 0 := by
  unfold ScatterDims.window
  have h0 : (0 : Fin 1) ∉ (vecScatterDims N E wf).sKept := by
    simp [Shape.kept, List.mem_filter]
  rw [dif_neg h0]

/-- A flat update `e` lands on `i` exactly when its index word is `i` as a signed integer. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (vecScatterDims N E wf).resultIdx? j idx = some (ix1 i) ↔ (idx (ix2 (j 0) 0)).toInt = (i.val : ℤ) := by
  have hs0 := vecScatter_start0 wf idx j
  have hw0 := vecScatter_window0 wf j
  unfold ScatterDims.resultIdx?
  split
  · rename_i hall
    rw [Option.some.injEq]
    constructor
    · intro heq
      have h0 := congrArg Fin.val (congrFun heq 0)
      have ha0 := (hall 0).1
      change ((vecScatterDims N E wf).start j idx 0 + ((vecScatterDims N E wf).window j 0 : ℤ)).toNat = i.val at h0
      rw [hs0, hw0] at h0 ha0
      omega
    · intro h0
      funext a
      refine Fin.ext ?_
      obtain rfl : a = 0 := Subsingleton.elim _ _
      show ((vecScatterDims N E wf).start j idx 0 + ((vecScatterDims N E wf).window j 0 : ℤ)).toNat = i.val
      rw [hs0, hw0, h0]; omega
  · rename_i hnot
    constructor
    · intro heq; cases heq
    · intro h0
      exfalso
      apply hnot
      intro a
      obtain rfl : a = 0 := Subsingleton.elim _ _
      show 0 ≤ (vecScatterDims N E wf).start j idx 0 + ((vecScatterDims N E wf).window j 0 : ℤ)
        ∧ (vecScatterDims N E wf).start j idx 0 + ((vecScatterDims N E wf).window j 0 : ℤ) < (N : ℤ)
      rw [hs0, hw0, h0]
      have := i.isLt
      omega

/-- The flat scatter-add read at `i`: the operand's entry plus the sum of the updates `e` whose index word `idx[e, 0]`
    is `i` as a signed integer. -/
theorem vecScatterAdd_apply {N E w : Nat}
    (wf : ScatterDims.WF ⟨1, ![N]⟩ ⟨2, ![E, 1]⟩ ⟨1, ![E]⟩ [] [0] [0] 1)
    (x0 : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x0 idx upd (ix1 i)
      = x0 (ix1 i) + ∑ e ∈ Finset.univ.filter (fun e : Fin E => (idx (ix2 e 0)).toInt = (i.val : ℤ)), upd (ix1 e) := by
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _,
      (vecScatter_resultIdx_iff wf idx j i).mp (Finset.mem_filter.mp hj).2⟩
  · intro e he
    exact Finset.mem_filter.mpr ⟨Finset.mem_univ _,
      (vecScatter_resultIdx_iff wf idx (ix1 e) i).mpr (Finset.mem_filter.mp he).2⟩
  · intro j _
    exact (eq_ix1 j).symm
  · intro e _
    rfl
  · intro j _
    exact congrArg upd (eq_ix1 j)

/-! ## The wrapped index word -/

/-- Where the raw word names a row below `50000`, the word wrapped at `50000` (negative words shifted up by the extent)
    clamps to that same row. -/
theorem clampRow_wrap_of_toInt_eq (b : BitVec 32) (i : Fin 50000) (h : b.toInt = (i.val : ℤ)) :
    clampRow 50000 (by decide) (Scalar.select (IntOp.cmpi .slt b 0#32) (IntOp.addi b 50000#32) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (50000 - 1) = i.val
  rw [h]
  have := i.isLt
  omega

end Idealize.ShloMosaic.RowIndex

end
-- ==== Proof.LibHostRowOps.lean ====
/-
  Host operations around a row-indexed gather or scatter, read at an index.

  The broadcasts that occur around a gather or an accumulating scatter along axis 0, each read at an index: a scalar
  spread over any shape; a vector `[N]` made a column `[N, 1]`; a column `[N, 1]` spread over `[N, W]`; a vector `[W]`
  made a row `[1, W]`; a row `[1, W]` spread over `[N, W]`.  The index words: a count `i < 2^31` written as a 32-bit word
  reads back, signed, as `i`; an index word that names a row `i` of the operand still names it after the usual wrap of
  negative indices (`w < 0 ? w + N : w`) and the gather's clamp.  And the host's accumulating scatters themselves at the
  ideal values: the operand's entry plus the sum of the updates whose index word names that row.
-/
import Idealize.ShloMosaic.Lib.Pipeline.Value
import Idealize.ShloMosaic.Lib.ValueIdx
import Idealize.ShloMosaic.PureOps.Ideal.Laws
import proofs.«105521_j74612171866465_2_alg».proof.Proof.LibRowGatherScatter

noncomputable section

namespace Cert.Bridge.HostRead

open Idealize.ShloMosaic Idealize.ShloMosaic.ValueIdx

variable {α : Type}

/-- A scalar spread over any shape reads the scalar. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry `(e, 0)` is entry `e`. -/
theorem bcast_col_apply {N : Nat} (hN : N ≠ 1) (h : (⟨1, ![N]⟩ : Shape).BroadcastsInDim ⟨2, ![N, 1]⟩ ![0])
    (x : (⟨1, ![N]⟩ : Shape).Idx → α) (e : Fin N) (z : Fin 1) :
    broadcastInDim ⟨2, ![N, 1]⟩ ![0] h x (ix2 e z) = x (ix1 e) :=
  broadcastInDim_apply _ h x _ (ix1 e) (fun a => match a with
    | ⟨0, _⟩ => by show e.val = if N = 1 then 0 else e.val; rw [if_neg hN])

/-- A column spread over the lanes: entry `(e, k)` is entry `(e, 0)`. -/
theorem bcast_row_apply {N W : Nat} (hN : N ≠ 1) (h : (⟨2, ![N, 1]⟩ : Shape).BroadcastsInDim ⟨2, ![N, W]⟩ ![0, 1])
    (x : (⟨2, ![N, 1]⟩ : Shape).Idx → α) (e : Fin N) (k : Fin W) :
    broadcastInDim ⟨2, ![N, W]⟩ ![0, 1] h x (ix2 e k) = x (ix2 e 0) :=
  broadcastInDim_apply _ h x _ (ix2 e 0) (fun a => match a with
    | ⟨0, _⟩ => by show e.val = if N = 1 then 0 else e.val; rw [if_neg hN]
    | ⟨1, _⟩ => by show 0 = if (1 : Nat) = 1 then 0 else k.val; rw [if_pos rfl])

/-- A vector made a row: entry `(0, k)` is entry `k`. -/
theorem bcast_lane_apply {W : Nat} (hW : W ≠ 1) (h : (⟨1, ![W]⟩ : Shape).BroadcastsInDim ⟨2, ![1, W]⟩ ![1])
    (x : (⟨1, ![W]⟩ : Shape).Idx → α) (z : Fin 1) (k : Fin W) :
    broadcastInDim ⟨2, ![1, W]⟩ ![1] h x (ix2 z k) = x (ix1 k) :=
  broadcastInDim_apply _ h x _ (ix1 k) (fun a => match a with
    | ⟨0, _⟩ => by show k.val = if W = 1 then 0 else k.val; rw [if_neg hW])

/-- A row spread over the rows: entry `(e, k)` is entry `(0, k)`. -/
theorem bcast_rows_apply {N W : Nat} (hW : W ≠ 1) (h : (⟨2, ![1, W]⟩ : Shape).BroadcastsInDim ⟨2, ![N, W]⟩ ![0, 1])
    (x : (⟨2, ![1, W]⟩ : Shape).Idx → α) (e : Fin N) (k : Fin W) :
    broadcastInDim ⟨2, ![N, W]⟩ ![0, 1] h x (ix2 e k) = x (ix2 0 k) :=
  broadcastInDim_apply _ h x _ (ix2 0 k) (fun a => match a with
    | ⟨0, _⟩ => by show 0 = if (1 : Nat) = 1 then 0 else e.val; rw [if_pos rfl]
    | ⟨1, _⟩ => by show k.val = if W = 1 then 0 else k.val; rw [if_neg hW])

/-- A count below `2^31` written as a 32-bit word reads back, signed, as itself. -/
theorem toInt_ofNat_small (n : Nat) (h : n < 2147483648) : (BitVec.ofNat 32 n).toInt = (n : ℤ) := by
  have h1 : (BitVec.ofNat 32 n).toNat = n := by rw [BitVec.toNat_ofNat]; omega
  rw [BitVec.toInt_eq_toNat_cond, h1]
  split <;> omega

/-- Where the raw word names a row below `100000`, the word wrapped at `100000` (negative words shifted up by the
    extent) clamps to that same row. -/
theorem clampRow_wrap_of_toInt_eq (b : BitVec 32) (i : Fin 100000) (h : b.toInt = (i.val : ℤ)) :
    RowIndex.clampRow 100000 (by decide) (Scalar.select (IntOp.cmpi .slt b 0#32) (IntOp.addi b 100000#32) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (100000 - 1) = i.val
  rw [h]
  have := i.isLt
  omega

/-- Where the raw word names a row below the extent `N`, the word wrapped at any shift (negative words shifted up)
    clamps to that same row: a word that names a row is not negative, so the wrap leaves it alone. -/
theorem clampRow_wrap_of_toInt_eq' {N : Nat} (hN : 0 < N) (b shift : BitVec 32) (i : Fin N) (h : b.toInt = (i.val : ℤ)) :
    RowIndex.clampRow N hN (Scalar.select (IntOp.cmpi .slt b 0#32) (IntOp.addi b shift) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (N - 1) = i.val
  rw [h]
  have := i.isLt
  omega

/-- The flat accumulating scatter at entry `i`. -/
theorem hostScatterAdd_vec {N E w : Nat} (wf : ScatterDims.WF ⟨1, ![N]⟩ ⟨2, ![E, 1]⟩ ⟨1, ![E]⟩ [] [0] [0] 1)
    (x0 : FVec Ideal ⟨1, ![N]⟩ .f32) (idx : IVec ⟨2, ![E, 1]⟩ w) (upd : FVec Ideal ⟨1, ![E]⟩ .f32) (i : Fin N) :
    Host.scatterAdd (RowIndex.vecScatterDims N E wf) x0 idx upd (ix1 i)
      = x0 (ix1 i) + ∑ e ∈ Finset.univ.filter (fun e : Fin E => (idx (ix2 e 0)).toInt = (i.val : ℤ)), upd (ix1 e) :=
  RowIndex.vecScatterAdd_apply wf x0 idx upd i

/-- The row accumulating scatter at entry `(i, k)`. -/
theorem hostScatterAdd_row {N E W w : Nat} (wf : ScatterDims.WF ⟨2, ![N, W]⟩ ⟨2, ![E, 1]⟩ ⟨2, ![E, W]⟩ [1] [0] [0] 1)
    (x0 : FVec Ideal ⟨2, ![N, W]⟩ .f32) (idx : IVec ⟨2, ![E, 1]⟩ w) (upd : FVec Ideal ⟨2, ![E, W]⟩ .f32) (i : Fin N) (k : Fin W) :
    Host.scatterAdd (RowIndex.rowScatterDims N E W wf) x0 idx upd (ix2 i k)
      = x0 (ix2 i k) + ∑ e ∈ Finset.univ.filter (fun e : Fin E => (idx (ix2 e 0)).toInt = (i.val : ℤ)), upd (ix2 e k) :=
  RowIndex.rowScatterAdd_apply wf x0 idx upd i k

end Cert.Bridge.HostRead

end
-- ==== Proof.LibExtendedRealSums.lean ====
/-
  Sums over an edge list, on the extended reals.

  Three facts.  A factor that is a nonnegative real number moves across a finite sum (on the extended reals a product
  distributes over a sum when the factor is nonnegative and not `+∞`).  With it, the symmetric normalisation summed edge
  by edge, `Σ_e x_e · (d_e · D) + x_c · (D · D)`, is the same number as the factored form
  `D · Σ_e (x_e · d_e) + (D · D) · x_c`.  And a filtered sum over a list that is a first list followed by a second splits
  into the two filtered sums; when exactly one entry of the second list passes the filter that part is one term.
-/
import Mathlib.Data.EReal.Inv
import Mathlib.Algebra.BigOperators.Fin

namespace Cert.Bridge.GraphSum

open scoped BigOperators

/-- A nonnegative finite factor moves inside a finite sum of extended reals. -/
theorem mul_sum_of_nonneg_ne_top {ι : Type} (s : Finset ι) (d : EReal) (hd : 0 ≤ d) (hd' : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd hd', ih]

/-- The symmetric normalisation, edge by edge with the node's own loop as a last term, against the factored form. -/
theorem conv_rearrange {ι : Type} (S : Finset ι) (D : EReal) (hD : 0 ≤ D) (hD' : D ≠ ⊤) (X dd : ι → EReal) (Xc b : EReal) :
    (0 + (∑ e ∈ S, X e * (dd e * D) + Xc * (D * D))) + b = (D * (0 + ∑ e ∈ S, X e * dd e) + (D * D) * Xc) + b := by
  rw [zero_add, zero_add, mul_sum_of_nonneg_ne_top S D hD hD', mul_comm Xc]
  congr 2
  refine Finset.sum_congr rfl fun e _ => ?_
  rw [← mul_assoc, mul_comm]

/-- A filtered sum over `A + B` positions: the first `A` positions, then the last `B`. -/
theorem sum_filter_fin_add {A B : ℕ} (p : Fin (A + B) → Prop) [DecidablePred p] (f : Fin (A + B) → EReal) :
    ∑ e ∈ Finset.univ.filter p, f e
      = ∑ e ∈ Finset.univ.filter (fun e : Fin A => p (Fin.castAdd B e)), f (Fin.castAdd B e)
        + ∑ i ∈ Finset.univ.filter (fun i : Fin B => p (Fin.natAdd A i)), f (Fin.natAdd A i) := by
  rw [Finset.sum_filter, Fin.sum_univ_add, ← Finset.sum_filter, ← Finset.sum_filter]

/-- A filtered sum whose filter keeps exactly one position is the term there. -/
theorem sum_filter_eq_single {B : ℕ} (c : Fin B) (p : Fin B → Prop) [DecidablePred p] (hp : ∀ i, p i ↔ i = c)
    (f : Fin B → EReal) : ∑ i ∈ Finset.univ.filter p, f i = f c := by
  rw [Finset.filter_congr (fun i _ => hp i), Finset.filter_eq', if_pos (Finset.mem_univ _), Finset.sum_singleton]

end Cert.Bridge.GraphSum
-- ==== Proof.EdgeList.lean ====
/-
  The edge list of the graph convolution: which edges end at a node, and which node an edge starts from.
-/
import proofs.«105521_j74612171866465_2_alg».proof.Proof.RefTerms
import proofs.«105521_j74612171866465_2_alg».proof.Proof.KernelTerms
import proofs.«105521_j74612171866465_2_alg».proof.Proof.LibHostRowOps
import proofs.«105521_j74612171866465_2_alg».proof.Proof.LibExtendedRealSums

set_option maxRecDepth 8192

noncomputable section

namespace Cert.Bridge.Degree

open Idealize.ShloMosaic Idealize.ShloMosaic.ValueIdx Cert.Bridge

/-- The edges whose target word is the node `c`, read as a signed integer (an edge whose target is negative or past the
    last node lands nowhere). -/
def into (col : IVec ⟨1, ![3200000]⟩ 32) (c : Fin 100000) : Finset (Fin 3200000) :=
  Finset.univ.filter (fun e => (col (ix1 e)).toInt = (c.val : ℤ))

/-- The node an index word names for a gather: a negative word wrapped around by the extent, then clamped into range. -/
def nodeOf (w : BitVec 32) : Fin 100000 :=
  RowIndex.clampRow 100000 (by decide) (Scalar.select (IntOp.cmpi .slt w 0#32) (IntOp.addi w 100000#32) w)

/-- The node edge `e` starts from, as the gathers read it. -/
def src (row : IVec ⟨1, ![3200000]⟩ 32) (e : Fin 3200000) : Fin 100000 := nodeOf (row (ix1 e))

/-- A word that names the node `i` as a signed integer names it for a gather too. -/
theorem nodeOf_of_toInt_eq (w : BitVec 32) (i : Fin 100000) (h : w.toInt = (i.val : ℤ)) : nodeOf w = i :=
  HostRead.clampRow_wrap_of_toInt_eq w i h

/-- The float word of `1.0` as an extended real. -/
def one : EReal := Ideal.ofBits .f32 0x3F800000#32

/-- The edge list followed by the loops, read in its first part. -/
theorem cat_left (a : IVec ⟨1, ![3200000]⟩ 32) (b : IVec ⟨1, ![100000]⟩ 32)
    (h : Shape.Concatenates [(⟨1, ![3200000]⟩ : Shape), ⟨1, ![100000]⟩] ⟨1, ![3300000]⟩ 0) (e : Fin 3200000) :
    concatenate (⟨1, ![3300000]⟩ : Shape) 0 [⟨⟨1, ![3200000]⟩, a⟩, ⟨⟨1, ![100000]⟩, b⟩] h (ix1 (n := 3300000) (Fin.castAdd 100000 e))
      = a (ix1 e) :=
  concatenate_pair_apply_left 0 a b h _ rfl (ix1 e) (fun b => match b with | ⟨0, _⟩ => rfl)

/-- The edge list followed by the loops, read in its second part. -/
theorem cat_right (a : IVec ⟨1, ![3200000]⟩ 32) (b : IVec ⟨1, ![100000]⟩ 32)
    (h : Shape.Concatenates [(⟨1, ![3200000]⟩ : Shape), ⟨1, ![100000]⟩] ⟨1, ![3300000]⟩ 0) (i : Fin 100000) :
    concatenate (⟨1, ![3300000]⟩ : Shape) 0 [⟨⟨1, ![3200000]⟩, a⟩, ⟨⟨1, ![100000]⟩, b⟩] h (ix1 (n := 3300000) (Fin.natAdd 3200000 i))
      = b (ix1 i) :=
  concatenate_pair_apply_right 0 a b h _ rfl rfl (ix1 i) (fun b hb => absurd (Subsingleton.elim _ _) hb)
    (by show i.val + 3200000 = 3200000 + i.val; omega)

end Cert.Bridge.Degree

end
-- ==== Proof.KerGcnAt.lean ====
/-
  The kernel program's graph convolution read at an index.

  At node `c` and feature `k` the kernel program's convolution is
  `dinv[c] · (0 + Σ_{edges e into c} xw[src e, k] · dinv[src e]) + (dinv[c] · dinv[c]) · xw[c, k] + b[k]`:
  the scaled embeddings gathered at the edges' sources, accumulated at their targets, scaled again at the target, plus
  the node's own loop and the bias.
-/
import proofs.«105521_j74612171866465_2_alg».proof.Proof.EdgeList
import proofs.«105521_j74612171866465_2_alg».proof.Proof.LibHostRowOps

set_option maxRecDepth 8192

noncomputable section

namespace Cert.Bridge.KerGcnAt

open Idealize.ShloMosaic Idealize.ShloMosaic.ValueIdx Cert.Bridge

/-- The wrapped source word of an edge. -/
theorem kerWrap_apply (row : IVec ⟨1, ![3200000]⟩ 32) (e : Fin 3200000) :
    Ker.kerWrap row (ix1 e)
      = Scalar.select (IntOp.cmpi .slt (row (ix1 e)) 0#32) (IntOp.addi (row (ix1 e)) 100000#32) (row (ix1 e)) := by
  unfold Ker.kerWrap
  rw [select_apply]
  show Scalar.select (IntOp.cmpi .slt (row (ix1 e)) (broadcastInDim _ _ _ _ (ix1 e)))
    (IntOp.addi (row (ix1 e)) (broadcastInDim _ _ _ _ (ix1 e))) _ = _
  rw [HostRead.bcast_scalar_apply, HostRead.bcast_scalar_apply]
  rfl

/-- The scaled embeddings `xw · dinv` at a row. -/
theorem scaled_apply (xw : FVec Ideal ⟨2, ![100000, 64]⟩ .f32) (d : FVec Ideal ⟨1, ![100000]⟩ .f32) (r : Fin 100000) (k : Fin 64) :
    mulf xw (broadcastInDim Cert.KernelIdeal.S100000x64 ![0, 1] Cert.KernelIdeal.Gen.bcast_S100000x1_S100000x64_0_1
      (broadcastInDim Cert.KernelIdeal.S100000x1 ![0] Cert.KernelIdeal.Gen.bcast_S100000_S100000x1_0 d)) (ix2 r k)
      = xw (ix2 r k) * d (ix1 r) := by
  rw [mulf_apply, HostRead.bcast_row_apply (N := 100000) (by decide), HostRead.bcast_col_apply (N := 100000) (by decide)]

/-- The gathered scaled embeddings at an edge: the source node's. -/
theorem gathered_apply (hs : FVec Ideal ⟨2, ![100000, 64]⟩ .f32) (row : IVec ⟨1, ![3200000]⟩ 32) (e : Fin 3200000) (k : Fin 64) :
    Host.gather Cert.KernelIdeal.gather_S100000x64_S3200000x1_S3200000x64_1_0_n_n_0_1_164 hs
      (broadcastInDim Cert.KernelIdeal.S3200000x1 ![0] Cert.KernelIdeal.Gen.bcast_S3200000_S3200000x1_0 (Ker.kerWrap row)) (ix2 e k)
      = hs (ix2 (Degree.src row e) k) := by
  rw [show Cert.KernelIdeal.gather_S100000x64_S3200000x1_S3200000x64_1_0_n_n_0_1_164
    = RowIndex.rowGatherDims 100000 3200000 64 Cert.KernelIdeal.Gen.gather_S100000x64_S3200000x1_S3200000x64_1_0_n_n_0_1_164_wf from rfl]
  rw [RowIndex.rowGather_apply (by decide), HostRead.bcast_col_apply (N := 3200000) (by decide), kerWrap_apply]
  rfl

/-- The kernel program's convolution at node `c`, feature `k`. -/
theorem kerGcn_apply (xw : FVec Ideal ⟨2, ![100000, 64]⟩ .f32) (row col : IVec ⟨1, ![3200000]⟩ 32)
    (a5 : FVec Ideal ⟨1, ![64]⟩ .f32) (c : Fin 100000) (k : Fin 64) :
    Ker.kerGcn xw row col a5 (ix2 c k)
      = (Ker.kerDinv col (ix1 c) * (0 + ∑ e ∈ Degree.into col c,
            xw (ix2 (Degree.src row e) k) * Ker.kerDinv col (ix1 (Degree.src row e)))
          + (Ker.kerDinv col (ix1 c) * Ker.kerDinv col (ix1 c)) * xw (ix2 c k)) + a5 (ix1 k) := by
  unfold Ker.kerGcn
  rw [addf_apply, addf_apply, mulf_apply, mulf_apply]
  rw [HostRead.bcast_rows_apply (W := 64) (by decide), HostRead.bcast_lane_apply (W := 64) (by decide)]
  rw [HostRead.bcast_row_apply (N := 100000) (by decide), HostRead.bcast_col_apply (N := 100000) (by decide)]
  rw [HostRead.bcast_row_apply (N := 100000) (by decide), mulf_apply, HostRead.bcast_col_apply (N := 100000) (by decide)]
  rw [show Cert.KernelIdeal.scatter_S100000x64_S3200000x1_S3200000x64_1_0_0_1
    = RowIndex.rowScatterDims 100000 3200000 64 Cert.KernelIdeal.Gen.scatter_S100000x64_S3200000x1_S3200000x64_1_0_0_1_wf from rfl]
  rw [HostRead.hostScatterAdd_row, HostRead.bcast_scalar_apply, constant_apply, Ideal.ofBits_zero_f32]
  refine congrArg (fun s : EReal => Ker.kerDinv col (ix1 c) * (0 + s)
    + Ker.kerDinv col (ix1 c) * Ker.kerDinv col (ix1 c) * xw (ix2 c k) + a5 (ix1 k)) ?_
  refine Finset.sum_congr ?_ (fun e _ => ?_)
  · unfold Degree.into
    refine Finset.filter_congr fun e _ => ?_
    rw [HostRead.bcast_col_apply (N := 3200000) (by decide)]
  · rw [gathered_apply, scaled_apply]

end Cert.Bridge.KerGcnAt

end
-- ==== Proof.RefGcnAt.lean ====
import proofs.«105521_j74612171866465_2_alg».proof.Proof.EdgeList

/-!
# The reference's graph convolution read at an entry

The reference appends one loop per node to the edge list (3 200 000 edges, then the 100 000 loops
`i → i`), gathers for every entry of the long list the source's projected features and the two
endpoints' inverse square-root degrees, multiplies them, and accumulates the products at the
entry's target. Read at node `c` and feature `k`, the accumulated sum runs over the entries whose
target word is `c`. Split at 3 200 000: among the edges these are the edges into `c`, each
contributing its source's feature times the two scalings; among the loops exactly the loop at `c`
passes, contributing `c`'s own feature times its scaling twice. The bias is added last.
-/

noncomputable section

namespace Cert.Bridge.RefGcnAt

open Idealize.ShloMosaic Idealize.ShloMosaic.ValueIdx Cert.Bridge
open scoped BigOperators

/-! ## The printed gather and scatter records read at an index -/

/-- The accumulating scatter of the 3 300 000 message rows into the zero-initialised node matrix. -/
theorem scatter_apply (x0 : FVec Ideal ⟨2, ![100000, 64]⟩ .f32) (idx : IVec ⟨2, ![3300000, 1]⟩ 32)
    (upd : FVec Ideal ⟨2, ![3300000, 64]⟩ .f32) (c : Fin 100000) (k : Fin 64) :
    Host.scatterAdd Cert.ReferenceIdeal.scatter_S100000x64_S3300000x1_S3300000x64_1_0_0_1 x0 idx upd (ix2 c k)
      = x0 (ix2 c k) + ∑ e ∈ Finset.univ.filter (fun e : Fin 3300000 => (idx (ix2 e 0)).toInt = (c.val : ℤ)), upd (ix2 e k) :=
  RowIndex.rowScatterAdd_apply (N := 100000) (E := 3300000) (W := 64)
    Cert.ReferenceIdeal.scatter_S100000x64_S3300000x1_S3300000x64_1_0_0_1.wf x0 idx upd c k

/-- The gather of feature rows. -/
theorem gatherRow_apply (x : FVec Ideal ⟨2, ![100000, 64]⟩ .f32) (idx : IVec ⟨2, ![3300000, 1]⟩ 32) (e : Fin 3300000) (k : Fin 64) :
    Host.gather Cert.ReferenceIdeal.gather_S100000x64_S3300000x1_S3300000x64_1_0_n_n_0_1_164 x idx (ix2 e k)
      = x (ix2 (RowIndex.clampRow 100000 (by decide) (idx (ix2 e 0))) k) :=
  RowIndex.rowGather_apply (N := 100000) (E := 3300000) (W := 64) (by decide)
    Cert.ReferenceIdeal.gather_S100000x64_S3300000x1_S3300000x64_1_0_n_n_0_1_164.wf x idx e k

/-- The gather of per-node scalars. -/
theorem gatherVec_apply (x : FVec Ideal ⟨1, ![100000]⟩ .f32) (idx : IVec ⟨2, ![3300000, 1]⟩ 32) (e : Fin 3300000) :
    Host.gather Cert.ReferenceIdeal.gather_S100000_S3300000x1_S3300000_n_0_n_n_0_1_1 x idx (ix1 e)
      = x (ix1 (RowIndex.clampRow 100000 (by decide) (idx (ix2 e 0)))) :=
  RowIndex.vecGather_apply (N := 100000) (E := 3300000) (by decide)
    Cert.ReferenceIdeal.gather_S100000_S3300000x1_S3300000_n_0_n_n_0_1_1.wf x idx e

/-! ## The index column of a gather: negative words wrapped, the list made a column -/

/-- The wrapped index list made a column reads, at entry `e`, the wrapped word of the list's entry `e`. -/
theorem wrapcol_apply (A : IVec ⟨1, ![3300000]⟩ 32)
    (h0 : (⟨0, ![]⟩ : Shape).BroadcastsInDim ⟨1, ![3300000]⟩ ![])
    (hc : (⟨1, ![3300000]⟩ : Shape).BroadcastsInDim ⟨2, ![3300000, 1]⟩ ![0]) (e : Fin 3300000) (z : Fin 1) :
    broadcastInDim (⟨2, ![3300000, 1]⟩ : Shape) ![0] hc
        (select (cmpi .slt A (broadcastInDim (⟨1, ![3300000]⟩ : Shape) ![] h0 (constantI (⟨0, ![]⟩ : Shape) 32 0#32)))
          (addi A (broadcastInDim (⟨1, ![3300000]⟩ : Shape) ![] h0 (constantI (⟨0, ![]⟩ : Shape) 32 100000#32))) A) (ix2 e z)
      = Scalar.select (IntOp.cmpi .slt (A (ix1 e)) 0#32) (IntOp.addi (A (ix1 e)) 100000#32) (A (ix1 e)) := by
  rw [HostRead.bcast_col_apply (N := 3300000) (by omega)]
  rfl

/-- So the row a gather reads through that column at entry `e` is the node the list's entry names. -/
theorem clamp_wrapcol (A : IVec ⟨1, ![3300000]⟩ 32)
    (h0 : (⟨0, ![]⟩ : Shape).BroadcastsInDim ⟨1, ![3300000]⟩ ![])
    (hc : (⟨1, ![3300000]⟩ : Shape).BroadcastsInDim ⟨2, ![3300000, 1]⟩ ![0]) (e : Fin 3300000) :
    RowIndex.clampRow 100000 (by decide)
        (broadcastInDim (⟨2, ![3300000, 1]⟩ : Shape) ![0] hc
          (select (cmpi .slt A (broadcastInDim (⟨1, ![3300000]⟩ : Shape) ![] h0 (constantI (⟨0, ![]⟩ : Shape) 32 0#32)))
            (addi A (broadcastInDim (⟨1, ![3300000]⟩ : Shape) ![] h0 (constantI (⟨0, ![]⟩ : Shape) 32 100000#32))) A) (ix2 e 0))
      = Degree.nodeOf (A (ix1 e)) := by
  rw [wrapcol_apply]
  rfl

/-! ## The filtered sum over the long list, split into edges and loops -/

/-- Over the long list (edges, then one loop per node) the entries whose target word is `c` are the
    edges into `c` and the loop at `c`: a sum over them of a function of the entry's two named nodes is
    the sum over the edges into `c` (whose target node is `c`) plus the term of the loop. -/
theorem sum_messages (R C : IVec ⟨1, ![3300000]⟩ 32) (row col : IVec ⟨1, ![3200000]⟩ 32)
    (hRl : ∀ e : Fin 3200000, R (ix1 (n := 3300000) (Fin.castAdd 100000 e)) = row (ix1 e))
    (hCl : ∀ e : Fin 3200000, C (ix1 (n := 3300000) (Fin.castAdd 100000 e)) = col (ix1 e))
    (hRr : ∀ i : Fin 100000, R (ix1 (n := 3300000) (Fin.natAdd 3200000 i)) = BitVec.ofNat 32 i.val)
    (hCr : ∀ i : Fin 100000, C (ix1 (n := 3300000) (Fin.natAdd 3200000 i)) = BitVec.ofNat 32 i.val)
    (c : Fin 100000) (G : Fin 100000 → Fin 100000 → EReal) :
    ∑ e ∈ Finset.univ.filter (fun e : Fin 3300000 => (C (ix1 e)).toInt = (c.val : ℤ)),
        G (Degree.nodeOf (R (ix1 e))) (Degree.nodeOf (C (ix1 e)))
      = ∑ e ∈ Degree.into col c, G (Degree.src row e) c + G c c := by
  have hloop : ∀ i : Fin 100000, Degree.nodeOf (BitVec.ofNat 32 i.val) = i := fun i =>
    Degree.nodeOf_of_toInt_eq _ i (HostRead.toInt_ofNat_small i.val (by have := i.isLt; omega))
  refine (GraphSum.sum_filter_fin_add (A := 3200000) (B := 100000)
    (fun e : Fin 3300000 => (C (ix1 e)).toInt = (c.val : ℤ))
    (fun e : Fin 3300000 => G (Degree.nodeOf (R (ix1 e))) (Degree.nodeOf (C (ix1 e))))).trans ?_
  refine congrArg₂ (· + ·) ?_ ?_
  · unfold Degree.into
    refine Finset.sum_congr (Finset.filter_congr fun e _ => by rw [hCl e]) fun e he => ?_
    have hc : (col (ix1 e)).toInt = (c.val : ℤ) := (Finset.mem_filter.mp he).2
    show G (Degree.nodeOf (R (ix1 (n := 3300000) (Fin.castAdd 100000 e)))) (Degree.nodeOf (C (ix1 (n := 3300000) (Fin.castAdd 100000 e)))) = _
    rw [hRl e, hCl e, Degree.nodeOf_of_toInt_eq _ c hc]
    rfl
  · refine (GraphSum.sum_filter_eq_single c _ (fun i => ?_) _).trans ?_
    · show (C (ix1 (n := 3300000) (Fin.natAdd 3200000 i))).toInt = (c.val : ℤ) ↔ i = c
      rw [hCr i, HostRead.toInt_ofNat_small i.val (by have := i.isLt; omega)]
      constructor
      · intro h; exact Fin.ext (by exact_mod_cast h)
      · intro h; rw [h]
    · show G (Degree.nodeOf (R (ix1 (n := 3300000) (Fin.natAdd 3200000 c)))) (Degree.nodeOf (C (ix1 (n := 3300000) (Fin.natAdd 3200000 c)))) = _
      rw [hRr c, hCr c, hloop c]

/-! ## The graph convolution over a variable index list -/

section Core
open Cert.ReferenceIdeal Cert.ReferenceIdeal.Gen

/-- The message matrix: entry `(e, k)` is the source's feature `k` times the two endpoints' scalings,
    the endpoints named by the long source list `R` and the long target list `C`. -/
def msg (xw : FVec Ideal S100000x64 .f32) (dinv : FVec Ideal S100000 .f32) (R C : IVec S3300000 32) : FVec Ideal S3300000x64 .f32 :=
  (mulf (Host.gather gather_S100000x64_S3300000x1_S3300000x64_1_0_n_n_0_1_164 xw (broadcastInDim S3300000x1 ![0] bcast_S3300000_S3300000x1_0 (select (cmpi .slt R (broadcastInDim S3300000 ![] bcast_S_S3300000 (constantI S_ 32 0#32))) (addi R (broadcastInDim S3300000 ![] bcast_S_S3300000 (constantI S_ 32 100000#32))) R))) (broadcastInDim S3300000x64 ![0, 1] bcast_S3300000x1_S3300000x64_0_1 (broadcastInDim S3300000x1 ![0] bcast_S3300000_S3300000x1_0 (mulf (Host.gather gather_S100000_S3300000x1_S3300000_n_0_n_n_0_1_1 dinv (broadcastInDim S3300000x1 ![0] bcast_S3300000_S3300000x1_0 (select (cmpi .slt R (broadcastInDim S3300000 ![] bcast_S_S3300000 (constantI S_ 32 0#32))) (addi R (broadcastInDim S3300000 ![] bcast_S_S3300000 (constantI S_ 32 100000#32))) R))) (Host.gather gather_S100000_S3300000x1_S3300000_n_0_n_n_0_1_1 dinv (broadcastInDim S3300000x1 ![0] bcast_S3300000_S3300000x1_0 (select (cmpi .slt C (broadcastInDim S3300000 ![] bcast_S_S3300000 (constantI S_ 32 0#32))) (addi C (broadcastInDim S3300000 ![] bcast_S_S3300000 (constantI S_ 32 100000#32))) C)))))))

/-- The convolution before the rectifier: the messages accumulated at their targets, plus the bias. -/
def gcnCore (xw : FVec Ideal S100000x64 .f32) (dinv : FVec Ideal S100000 .f32) (R C : IVec S3300000 32) (a5 : FVec Ideal S64 .f32) :
    FVec Ideal S100000x64 .f32 :=
  addf (Host.scatterAdd scatter_S100000x64_S3300000x1_S3300000x64_1_0_0_1 (broadcastInDim S100000x64 ![] bcast_S_S100000x64 (constant (F := Ideal) S_ .f32 0x00000000#32)) (broadcastInDim S3300000x1 ![0] bcast_S3300000_S3300000x1_0 C) (msg xw dinv R C)) (broadcastInDim S100000x64 ![0, 1] bcast_S1x64_S100000x64_0_1 (broadcastInDim S1x64 ![1] bcast_S64_S1x64_1 a5))

/-- The reference's convolution is that, over the edge list followed by the loops. -/
theorem refGcn_core (xw : FVec Ideal S100000x64 .f32) (row col : IVec S3200000 32) (a5 : FVec Ideal S64 .f32) :
    Ref.refGcn xw row col a5
      = gcnCore xw (Ref.refDinv col) (concatenate S3300000 0 [⟨S3200000, row⟩, ⟨S100000, (iotaInDim S100000 32 0)⟩] concatenates_S3200000_S100000_S3300000_d0) (concatenate S3300000 0 [⟨S3200000, col⟩, ⟨S100000, (iotaInDim S100000 32 0)⟩] concatenates_S3200000_S100000_S3300000_d0) a5 := rfl

end Core

/-- One message. -/
theorem msg_apply (xw : FVec Ideal ⟨2, ![100000, 64]⟩ .f32) (dinv : FVec Ideal ⟨1, ![100000]⟩ .f32) (R C : IVec ⟨1, ![3300000]⟩ 32)
    (e : Fin 3300000) (k : Fin 64) :
    msg xw dinv R C (ix2 e k)
      = xw (ix2 (Degree.nodeOf (R (ix1 e))) k) * (dinv (ix1 (Degree.nodeOf (R (ix1 e)))) * dinv (ix1 (Degree.nodeOf (C (ix1 e))))) := by
  unfold msg
  rw [mulf_apply, gatherRow_apply, clamp_wrapcol, HostRead.bcast_row_apply (N := 3300000) (W := 64) (by omega),
    HostRead.bcast_col_apply (N := 3300000) (by omega), mulf_apply, gatherVec_apply, gatherVec_apply, clamp_wrapcol, clamp_wrapcol]

/-- The convolution over a variable index list, read at node `c` and feature `k`. -/
theorem core_apply (xw : FVec Ideal ⟨2, ![100000, 64]⟩ .f32) (dinv : FVec Ideal ⟨1, ![100000]⟩ .f32) (R C : IVec ⟨1, ![3300000]⟩ 32)
    (a5 : FVec Ideal ⟨1, ![64]⟩ .f32) (c : Fin 100000) (k : Fin 64) :
    gcnCore xw dinv R C a5 (ix2 c k)
      = (0 + ∑ e ∈ Finset.univ.filter (fun e : Fin 3300000 => (C (ix1 e)).toInt = (c.val : ℤ)),
            xw (ix2 (Degree.nodeOf (R (ix1 e))) k) * (dinv (ix1 (Degree.nodeOf (R (ix1 e)))) * dinv (ix1 (Degree.nodeOf (C (ix1 e))))))
        + a5 (ix1 k) := by
  unfold gcnCore
  rw [addf_apply, scatter_apply, HostRead.bcast_scalar_apply, constant_apply, Ideal.ofBits_zero_f32,
    HostRead.bcast_rows_apply (N := 100000) (W := 64) (by omega), HostRead.bcast_lane_apply (W := 64) (by omega)]
  refine congrArg (· + a5 (ix1 k)) (congrArg (0 + ·) ?_)
  exact Finset.sum_congr
    (Finset.filter_congr fun e _ => by rw [HostRead.bcast_col_apply (N := 3300000) (by omega)])
    (fun e _ => msg_apply xw dinv R C e k)

/-! ## The reference's convolution at an entry -/

theorem refGcn_apply (xw : FVec Ideal ⟨2, ![100000, 64]⟩ .f32) (row col : IVec ⟨1, ![3200000]⟩ 32) (a5 : FVec Ideal ⟨1, ![64]⟩ .f32)
    (c : Fin 100000) (k : Fin 64) :
    Ref.refGcn xw row col a5 (ix2 c k)
      = (0 + (∑ e ∈ Degree.into col c, xw (ix2 (Degree.src row e) k) * (Ref.refDinv col (ix1 (Degree.src row e)) * Ref.refDinv col (ix1 c))
              + xw (ix2 c k) * (Ref.refDinv col (ix1 c) * Ref.refDinv col (ix1 c))))
        + a5 (ix1 k) := by
  rw [refGcn_core, core_apply]
  refine congrArg (· + a5 (ix1 k)) (congrArg (0 + ·) ?_)
  exact sum_messages _ _ row col
    (fun e => Degree.cat_left row _ _ e) (fun e => Degree.cat_left col _ _ e)
    (fun i => Degree.cat_right row _ _ i) (fun i => Degree.cat_right col _ _ i)
    c (fun s t => xw (ix2 s k) * (Ref.refDinv col (ix1 s) * Ref.refDinv col (ix1 t)))

end Cert.Bridge.RefGcnAt

end
-- ==== Proof.Degree.lean ====
/-
  The degree vector and its inverse square root, on both sides.

  The reference appends one loop per node to the edge list and accumulates a one at the target of every entry:
  `deg[c] = 0 + (Σ_{edges into c} 1 + 1)`.  The kernel program accumulates over the edges only and adds the loop's one
  afterwards: `deg[c] = (0 + Σ_{edges into c} 1) + 1`.  These are the same extended real, a positive real number, so the
  reference's guard `deg > 0` always holds and both sides' `dinv` is `deg^(-1/2)`, a nonnegative real number.
-/
import proofs.«105521_j74612171866465_2_alg».proof.Proof.EdgeList
import proofs.«105521_j74612171866465_2_alg».proof.Proof.LibHostRowOps
import Idealize.ShloMosaic.Lib.IdealHost

set_option maxRecDepth 8192

noncomputable section

namespace Cert.Bridge.Degree

open Idealize.ShloMosaic Idealize.ShloMosaic.ValueIdx Cert.Bridge

/-- The kernel program's degree at a node. -/
theorem kerDeg_apply (col : IVec ⟨1, ![3200000]⟩ 32) (c : Fin 100000) :
    Ker.kerDeg col (ix1 c) = (0 + ∑ _e ∈ into col c, one) + one := by
  unfold Ker.kerDeg
  rw [addf_apply, HostRead.bcast_scalar_apply, constant_apply]
  rw [show Cert.KernelIdeal.scatter_S100000_S3200000x1_S3200000_n_0_0_1
    = RowIndex.vecScatterDims 100000 3200000 Cert.KernelIdeal.Gen.scatter_S100000_S3200000x1_S3200000_n_0_0_1_wf from rfl]
  rw [HostRead.hostScatterAdd_vec, HostRead.bcast_scalar_apply, constant_apply, Ideal.ofBits_zero_f32]
  simp only [HostRead.bcast_col_apply (N := 3200000) (by decide), HostRead.bcast_scalar_apply, constant_apply]
  rfl

/-- The reference's degree at a node: the loop's one is the last term of the accumulated sum. -/
theorem refDeg_apply (col : IVec ⟨1, ![3200000]⟩ 32) (c : Fin 100000) :
    Ref.refDeg col (ix1 c) = 0 + (∑ _e ∈ into col c, one + one) := by
  unfold Ref.refDeg
  rw [show Cert.ReferenceIdeal.scatter_S100000_S3300000x1_S3300000_n_0_0_1
    = RowIndex.vecScatterDims 100000 3300000 Cert.ReferenceIdeal.Gen.scatter_S100000_S3300000x1_S3300000_n_0_0_1_wf from rfl]
  rw [HostRead.hostScatterAdd_vec, HostRead.bcast_scalar_apply, constant_apply, Ideal.ofBits_zero_f32]
  simp only [HostRead.bcast_col_apply (N := 3300000) (by decide), HostRead.bcast_scalar_apply, constant_apply]
  refine congrArg (fun s : EReal => 0 + s) ?_
  refine (GraphSum.sum_filter_fin_add (A := 3200000) (B := 100000) _ _).trans ?_
  refine congrArg₂ (fun s t : EReal => s + t) ?_ ?_
  · refine Finset.sum_congr (Finset.filter_congr fun e _ => ?_) (fun _ _ => rfl)
    rw [cat_left]
  · refine GraphSum.sum_filter_eq_single c _ (fun i => ?_) _
    rw [cat_right]
    show (BitVec.ofNat 32 i.val).toInt = (c.val : ℤ) ↔ i = c
    rw [HostRead.toInt_ofNat_small _ (by have := i.isLt; omega)]
    constructor
    · intro h; exact Fin.ext (by exact_mod_cast h)
    · rintro rfl; rfl

/-- The two degrees are one extended real. -/
theorem deg_eq (col : IVec ⟨1, ![3200000]⟩ 32) (c : Fin 100000) : Ref.refDeg col (ix1 c) = Ker.kerDeg col (ix1 c) := by
  rw [refDeg_apply, kerDeg_apply, zero_add, zero_add]

/-- A finite sum of ones is a nonnegative real number. -/
theorem sum_one_real {ι : Type} (s : Finset ι) : ∃ r : ℝ, 0 ≤ r ∧ ∑ _e ∈ s, (1 : EReal) = (r : EReal) := by
  classical
  induction s using Finset.induction_on with
  | empty => exact ⟨0, le_refl _, by simp⟩
  | insert a s ha ih =>
    obtain ⟨r, hr, h⟩ := ih
    refine ⟨1 + r, by positivity, ?_⟩
    rw [Finset.sum_insert ha, h, EReal.coe_add, EReal.coe_one]

/-- The degree is a positive real number. -/
theorem kerDeg_pos (col : IVec ⟨1, ![3200000]⟩ 32) (c : Fin 100000) :
    ∃ r : ℝ, 0 < r ∧ Ker.kerDeg col (ix1 c) = (r : EReal) := by
  obtain ⟨r, hr, h⟩ := sum_one_real (into col c)
  refine ⟨r + 1, by positivity, ?_⟩
  rw [kerDeg_apply, one, Ideal.ofBits_one_f32, h, zero_add, EReal.coe_add, EReal.coe_one]

/-- The host's inverse square root at an index. -/
theorem hostRsqrt_apply {s : Shape} (x : FVec Ideal s .f32) (i : s.Idx) : Host.rsqrt x i = Ideal.rsqrt (x i) := rfl

/-- The kernel program's `dinv` at a node is the inverse square root of the degree there. -/
theorem kerDinv_apply (col : IVec ⟨1, ![3200000]⟩ 32) (c : Fin 100000) :
    Ker.kerDinv col (ix1 c) = Ideal.rsqrt (Ker.kerDeg col (ix1 c)) := by
  unfold Ker.kerDinv
  rw [hostRsqrt_apply]

/-- `dinv` is a nonnegative real number. -/
theorem kerDinv_real (col : IVec ⟨1, ![3200000]⟩ 32) (c : Fin 100000) :
    0 ≤ Ker.kerDinv col (ix1 c) ∧ Ker.kerDinv col (ix1 c) ≠ ⊤ := by
  obtain ⟨r, hr, h⟩ := kerDeg_pos col c
  rw [kerDinv_apply, h, Ideal.rsqrt_coe, if_neg (not_lt.mpr hr.le), if_neg hr.ne']
  exact ⟨EReal.coe_nonneg.mpr (inv_nonneg.mpr (Real.sqrt_nonneg r)), EReal.coe_ne_top _⟩

/-- The reference's guarded `dinv` is the kernel program's: the guard `deg > 0` always holds. -/
theorem refDinv_apply (col : IVec ⟨1, ![3200000]⟩ 32) (c : Fin 100000) :
    Ref.refDinv col (ix1 c) = Ker.kerDinv col (ix1 c) := by
  obtain ⟨r, hr, h⟩ := kerDeg_pos col c
  unfold Ref.refDinv
  rw [select_apply, cmpf_apply, HostRead.bcast_scalar_apply, constant_apply, Ideal.ofBits_zero_f32, deg_eq, h]
  have hpos : FloatOps.cmpf (F := Ideal) (φ := .f32) .ogt ((r : ℝ) : EReal) 0 = 1#1 := by
    show BitVec.ofBool (decide ((0 : EReal) < (r : EReal))) = 1#1
    rw [decide_eq_true (EReal.coe_pos.mpr hr)]; rfl
  rw [hpos, select_one, hostRsqrt_apply, deg_eq, kerDinv_apply]

/-- As whole vectors. -/
theorem refDinv_eq (col : IVec ⟨1, ![3200000]⟩ 32) : Ref.refDinv col = Ker.kerDinv col := by
  funext j
  rw [eq_ix1 j]
  exact refDinv_apply col (j 0)

end Cert.Bridge.Degree

end
-- ==== Proof.GcnEq.lean ====
/-
  The two arrangements of the graph convolution are one function.

  At node c and feature k the reference sums, over the edges e into c and the node's own loop,
  xw[src e, k] · (dinv[src e] · dinv[c]), the loop contributing xw[c, k] · (dinv[c] · dinv[c]); the kernel program
  scales the embeddings first, sums dinv[c] · Σ_e xw[src e, k] · dinv[src e], and adds (dinv[c] · dinv[c]) · xw[c, k].
  Both use the same dinv, and dinv[c] is a nonnegative real number, so it moves across the finite sum: the two are the
  same extended real, and the bias is added to both.
-/
import proofs.«105521_j74612171866465_2_alg».proof.Proof.KerGcnAt
import proofs.«105521_j74612171866465_2_alg».proof.Proof.RefGcnAt
import proofs.«105521_j74612171866465_2_alg».proof.Proof.Degree
import proofs.«105521_j74612171866465_2_alg».proof.Proof.LibExtendedRealSums

set_option maxRecDepth 8192

noncomputable section

namespace Cert.Bridge.GcnEq

open Idealize.ShloMosaic Idealize.ShloMosaic.ValueIdx Cert.Bridge

/-- The kernel program's graph convolution is the reference's, entry by entry. -/
theorem gcn_eq (xw : FVec Ideal Cert.KernelIdeal.S100000x64 .f32) (row col : IVec Cert.KernelIdeal.S3200000 32)
    (a5 : FVec Ideal Cert.KernelIdeal.S64 .f32) : Ker.kerGcn xw row col a5 = Ref.refGcn xw row col a5 := by
  funext j
  obtain ⟨c, k, rfl⟩ : ∃ (c : Fin 100000) (k : Fin 64), j = ix2 c k := ⟨j 0, j 1, eq_ix2 j⟩
  rw [KerGcnAt.kerGcn_apply, RefGcnAt.refGcn_apply, Degree.refDinv_eq]
  have h := GraphSum.conv_rearrange (Degree.into col c) (Ker.kerDinv col (ix1 c)) (Degree.kerDinv_real col c).1
    (Degree.kerDinv_real col c).2 (fun e => xw (ix2 (Degree.src row e) k))
    (fun e => Ker.kerDinv col (ix1 (Degree.src row e))) (xw (ix2 c k)) (a5 (ix1 k))
  beta_reduce at h
  exact h.symm

end Cert.Bridge.GcnEq

end
-- ==== Proof.lean ====
/-
  A two-layer graph model, kernel program against reference: a graph convolution over 100000 nodes and 3200000 edges
  with self loops, a rectifier, a gather of 500000 member nodes averaged into 1024 graphs, and a predictor
  (linear, rectifier, normalisation over the batch of graphs, linear).

  Read at the ideal values (floats are extended reals, every operation exact, a change of float format the identity)
  the two programs compute the same array.  The projection `xw = x · W` is one whole product in the reference and ten
  row blocks of it in the kernel program; the predictor is the same chain of operations, on the host in the reference and
  in one kernel body in the kernel program, a matrix product being the same sum either way and a column mean the same
  sum divided by the same count.  The one place where the two differ as formulas is the graph convolution.  The reference
  appends a loop per node to the edge list and sums, over the entries `e` that end at node `c`,
  `xw[src e] · (dinv[src e] · dinv[c])`, where `deg` counts the entries ending at a node and `dinv = deg^(-1/2)`
  (guarded by `deg > 0`); the kernel program counts the edges and adds one, scales the embeddings first,
  `hs = xw · dinv`, sums `hs[src e]` over the edges ending at `c`, and forms
  `dinv[c] · Σ hs[src e] + (dinv[c] · dinv[c]) · xw[c]`.  Both degrees are the same positive real number, so the guard
  always holds and `dinv[c]` is a nonnegative real number; a nonnegative real factor moves across a finite sum of
  extended reals whatever the terms are, and products of extended reals commute and associate, so the two sums are one
  extended real.  No hypothesis on the inputs is used.  Index words are read as both programs read them: a scatter
  drops a target word that is negative or past the last node, a gather wraps a negative source word around and clamps;
  a target word the scatter keeps names the same node for the gather.

  The three frames are the programs' runs; the kernel's idealization rewrote nothing.
-/
import proofs.«105521_j74612171866465_2_alg».proof.Defs
import proofs.«105521_j74612171866465_2_alg».proof.Proof.Claims
import proofs.«105521_j74612171866465_2_alg».proof.Proof.GcnEq

noncomputable section

namespace Cert.Proof

/-- The five claims, under the programs' stated side conditions: the frames, the idealization, and the equality of the
    two idealized programs' results, from the equality of their graph convolutions. -/
theorem claim : Cert.Claim := Cert.Bridge.Claims.claim_of Cert.Bridge.GcnEq.gcn_eq

end Cert.Proof

end
